-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S4096x2048 : Shape := ⟨2, ![4096, 2048]⟩
abbrev S4096x128 : Shape := ⟨2, ![4096, 128]⟩
abbrev S2048x2047 : Shape := ⟨2, ![2048, 2047]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x128 : S_.BroadcastsInDim S4096x128 (![] : Fin 0 → Fin S4096x128.rank)
  reducesTo_S4096x128_S_d0_1 : S4096x128.ReducesTo [0, 1] S_
  bcast_S_S2048x2047 : S_.BroadcastsInDim S2048x2047 (![] : Fin 0 → Fin S2048x2047.rank)
  reducesTo_S2048x2047_S_d0_1 : S2048x2047.ReducesTo [0, 1] S_

variable [Facts]

def fn_part1 {F : FTy → Type} [FloatOps F] (main_v13 : IVec S_ 1) (main_v16 : IVec S2048x2047 1) : IVec S_ 1 :=
  let main_c_5 : IVec S_ 1 := constantI S_ 1 1#1
  let main_v17 : IVec S_ 1 := (fun x v => Host.reduce IntOp.andi x v reducesTo_S2048x2047_S_d0_1 h_S_) main_v16 main_c_5
  let main_v18 : IVec S_ 1 := andi main_v13 main_v17
  main_v18

def fn {F : FTy → Type} [FloatOps F] (main_arg0 : FVec F S2048x128 .f32) (main_arg1 : FVec F S4096x2048 .f32) (main_arg2 : FVec F S4096x128 .f32) (main_arg3 : FVec F S2048x2047 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S2048x2047 .f32 := Host.absf main_arg3
  let main_cst_4 : FVec F S_ .f32 := constant S_ .f32 0x7F800000#32
  let main_v15 : FVec F S2048x2047 .f32 := broadcastInDim S2048x2047 ![] bcast_S_S2048x2047 main_cst_4
  let main_v16 : IVec S2048x2047 1 := cmpf .olt main_v14 main_v15
  fn_part1 (F := F) main_v13 main_v16
-- ==== Kernel.lean ====
abbrev S2048x128 : Shape := ⟨2, ![2048, 128]⟩
abbrev S4096x2048 : Shape := ⟨2, ![4096, 2048]⟩
abbrev S4096x128 : Shape := ⟨2, ![4096, 128]⟩
abbrev S2048x2047 : Shape := ⟨2, ![2048, 2047]⟩
abbrev S2048x2048 : Shape := ⟨2, ![2048, 2048]⟩
abbrev S256x2047 : Shape := ⟨2, ![256, 2047]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S4096x2048, .f32⟩
  | .hbm, ⟨2, _⟩ => ⟨S4096x128, .f32⟩
  | .hbm, ⟨3, _⟩ => ⟨S2048x2047, .f32⟩
  | .hbm, ⟨4, _⟩ => ⟨S2048x2048, .bf16⟩
  | .hbm, ⟨5, _⟩ => ⟨S4096x2048, .f32⟩
  | .local _ .vmem, ⟨0, _⟩ => ⟨S256x2047, .f32⟩
  | .local _ .vmem, ⟨1, _⟩ => ⟨S256x2047, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2047 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x2047_S256x2047_0_0 : ∀ a, (![0, 0] : Fin 2 → Nat) a + S256x2047.size a ≤ S256x2047.size a
  h_S256x2047 : 0 < S256x2047.numel
  reduces_S256x2047_S256 : S256x2047.Reduces [1] S256
  shapeCasts_S256_S256x1 : S256.ShapeCasts S256x1
  broadcasts_S256x1_S256x2047 : S256x1.Broadcasts S256x2047
  concatenates_S256x2047_S256x1_S256x2048_d1 : Shape.Concatenates [S256x2047, S256x1] S256x2048 1
  concatenates_S256x1_S256x2047_S256x2048_d1 : Shape.Concatenates [S256x1, S256x2047] S256x2048 1
  iota_S256x2048_d0_w32 : S256x2048.Iotas .tc 32 [0]
  iota_S256x2048_d1_w32 : S256x2048.Iotas .tc 32 [1]
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2047.size a ≤ S2048x2047.size a
  hwx0_0 : ∀ i : grid0.Coords, EltTy.bits .f32 = 32 ∨ (Rect.block (s := S2048x2047) S256x2047.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x2048.size a
  hwx1_2 : ∀ i : grid1.Coords, EltTy.bits .f32 = 32 ∨ (Rect.block (s := S4096x2048) S512x1024.size (cc1_transform_2 i) (hinb1_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg3) S256x2047.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x128 : Shape := ⟨2, ![2048, 128]⟩
abbrev S4096x2048 : Shape := ⟨2, ![4096, 2048]⟩
abbrev S4096x128 : Shape := ⟨2, ![4096, 128]⟩
abbrev S2048x2047 : Shape := ⟨2, ![2048, 2047]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1x2048 : Shape := ⟨2, ![1, 2048]⟩
abbrev S2048x2048x1 : Shape := ⟨3, ![2048, 2048, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S4096x2048, .f32⟩
  | .hbm, ⟨2, _⟩ => ⟨S4096x128, .f32⟩
  | .hbm, ⟨3, _⟩ => ⟨S2048x2047, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x2047, .f32⟩
  | .hbm, ⟨11, _⟩ => ⟨S2048x2047, .f32⟩
  | .hbm, ⟨12, _⟩ => ⟨S2048x2047, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x2047, .f32⟩
  | .hbm, ⟨17, _⟩ => ⟨S2048x2047, .f32⟩
  | .hbm, ⟨18, _⟩ => ⟨S_, .f32⟩
  | .hbm, ⟨19, _⟩ => ⟨S2048x1, .f32⟩
  | .hbm, ⟨20, _⟩ => ⟨S2048x2048, .f32⟩
  | .hbm, ⟨21, _⟩ => ⟨S2048, .i32⟩
  | .hbm, ⟨22, _⟩ => ⟨S2048x1, .i32⟩
  | .hbm, ⟨23, _⟩ => ⟨S1x2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S1x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S2048x2048x1, .i32⟩
  | .hbm, ⟨47, _⟩ => ⟨S1, .i32⟩
  | .hbm, ⟨48, _⟩ => ⟨S_, .i32⟩
  | .hbm, ⟨49, _⟩ => ⟨S2048x2048x1, .i32⟩
  | .hbm, ⟨50, _⟩ => ⟨S2048x2048x1, .i1⟩
  | .hbm, ⟨51, _⟩ => ⟨S1x1x1, .i32⟩
  | .hbm, ⟨52, _⟩ => ⟨S2048x2048x1, .i32⟩
  | .hbm, ⟨53, _⟩ => ⟨S2048x2048x1, .i1⟩
  | .hbm, ⟨54, _⟩ => ⟨S2048x2048x1, .i1⟩
  | .hbm, ⟨55, _⟩ => ⟨S_, .i1⟩
  | .hbm, ⟨56, _⟩ => ⟨S2048x2048, .i1⟩
  | .hbm, ⟨57, _⟩ => ⟨S2048x2048, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S4096x2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_v27 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]

class Facts₀ : Prop where
  reducesTo_S2048x2047_S2048_d1 : S2048x2047.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2047_0_1 : S2048x1.BroadcastsInDim S2048x2047 (![0, 1] : Fin 2 → Fin S2048x2047.rank)
  bcast_S_S2048x1 : S_.BroadcastsInDim S2048x1 (![] : Fin 0 → Fin S2048x1.rank)
  concatenates_S2048x1_S2048x2047_S2048x2048_d1 : Shape.Concatenates [S2048x1, S2048x2047] S2048x2048 1
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  natLt_1_32 : 1 < 32
  bcast_S_S2048x2048 : S_.BroadcastsInDim S2048x2048 (![] : Fin 0 → Fin S2048x2048.rank)
  shapeCasts_S2048x2048_S2048x2048x1 : S2048x2048.ShapeCasts S2048x2048x1
  bcast_S_S2048x2048x1 : S_.BroadcastsInDim S2048x2048x1 (![] : Fin 0 → Fin S2048x2048x1.rank)
  bcast_S1_S1x1x1_2 : S1.BroadcastsInDim S1x1x1 (![2] : Fin 1 → Fin S1x1x1.rank)
  bcast_S1x1x1_S2048x2048x1_0_1_2 : S1x1x1.BroadcastsInDim S2048x2048x1 (![0, 1, 2] : Fin 3 → Fin S2048x2048x1.rank)
  reducesTo_S2048x2048x1_S2048x2048_d2 : S2048x2048x1.ReducesTo [2] S2048x2048
  gather_S2048x2048_S2048x2048x1_S2048x2048_n_1_0_0_1_2_11_wf : GatherDims.WF S2048x2048 S2048x2048x1 S2048x2048 [] [1] [0] [1] [0] 2 ![1, 1]
  dot_S4096x2048_S2048x2048_S4096x2048_1_0_0_1_n_n_wf : DotDims.WF S4096x2048 S2048x2048 S4096x2048 [1] [0] [0] [1] [] []

variable [Facts₀]

def gather_S2048x2048_S2048x2048x1_S2048x2048_n_1_0_0_1_2_11 : GatherDims S2048x2048 S2048x2048x1 S2048x2048 where
  offsetDims := []
  collapsedSliceDims := [1]
  operandBatchingDims := [0]
  startIndicesBatchingDims := [0]
  startIndexMap := [1]
  indexVectorDim := 2
  sliceSizes := ![1, 1]
  wf := gather_S2048x2048_S2048x2048x1_S2048x2048_n_1_0_0_1_2_11_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KernelRun.lean ====
/-
  The idealized kernel's run with its result array named.

  @main is two launches one after the other: the first writes the transition matrix into `main_v0`, the second reads it and
  writes the product into `main_v1`. The frame certificate names the buffer contents at each boundary as a fold from the launch
  memory (`W0`, `W1`, `W2`); its closing theorem keeps only the four arguments. Here the same launch theorem is read once more
  at the result's buffer too: every weakly fair execution ends with `main_v1` at `W2 … main_v1` and the arguments as launched.
-/
import proofs.«171652_j21680994910755_1_alg».proof.Proof.FrameKernelIdealP

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    and the four arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The result buffer's last contents are what the second launch's write-backs leave of its output window. -/
theorem W2_result (c : Dev nD) : W2 m ρ c (Proc.devRef .tc main_v1) = (dat1 (V1 m ρ) c).arrAt 2 cfg1.N :=
  W2_arr m ρ c 2

/-- The second launch finds the first argument matrix as launched … -/
theorem V1_arg1 (c : Dev nD) : V1 m ρ c main_arg1 = m ((c : Thread nD τ).loc main_arg1) :=
  W1_of_ne m ρ c main_arg1 (by decide)

/-- … and the transition matrix's buffer at what the first launch's write-backs leave of its output window. -/
theorem V1_mat (c : Dev nD) : V1 m ρ c main_v0 = (dat0 (V0 m ρ) c).arrAt 1 cfg0.N :=
  W1_arr m ρ c 1

end Cert.KernelIdeal.Run

end
-- ==== Proof.Spec.lean ====
/-
  The mathematics both programs compute, stated once over the extended reals.

  From logits `U` of shape [2048, 2047] each row `s` is turned into a probability row by a softmax taken from the row's
  greatest entry: `p s k = exp (U s k − max_k' U s k') / ∑_k'' exp (U s k'' − max_k' U s k')`. The transition matrix `M` of
  shape [2048, 2048] is that row with a zero put in at the diagonal position: `M s t = p s t` for `t < s`, `M s s = 0`,
  `M s t = p s (t − 1)` for `t > s`. The result is the plain product `A · M` of the [4096, 2048] matrix `A` with `M`.
-/
import Idealize.ShloMosaic.PureOps.Ideal
import Idealize.ShloMosaic.Lib.ValueIdx

noncomputable section

open scoped BigOperators

namespace Cert.TransMat

open Idealize.ShloMosaic Idealize.ShloMosaic.ValueIdx

/-- A row's greatest entry, the maximum taken from −∞ (the f32 word `0xFF800000`). -/
def rowMax (u : Fin 2047 → EReal) : EReal :=
  Finset.univ.fold max (Ideal.ofBits .f32 0xFF800000#32) u

/-- The exponential of an entry's distance below the row's greatest entry. -/
def rowExp (u : Fin 2047 → EReal) (k : Fin 2047) : EReal := Ideal.exp (u k - rowMax u)

/-- The softmax of a row: each exponential over the sum of them all. -/
def rowProb (u : Fin 2047 → EReal) (k : Fin 2047) : EReal := Ideal.div (rowExp u k) (∑ k', rowExp u k')

/-- A row of 2047 entries with a zero put in at position `s`: the entries before `s` stay, those from `s` on move one
    place to the right. -/
def withZeroAt (p : Fin 2047 → EReal) (s t : Fin 2048) : EReal :=
  if h : t.val < s.val then p ⟨t.val, by omega⟩
  else if h' : t.val = s.val then 0
  else p ⟨t.val - 1, by omega⟩

/-- The transition matrix: row `s` is the softmax of row `s` of the logits with a zero put in on the diagonal. -/
def transMat (U : (⟨2, ![2048, 2047]⟩ : Shape).Idx → EReal) (s t : Fin 2048) : EReal :=
  withZeroAt (rowProb fun k => U (ix2 s k)) s t

/-- The result: the matrix `A` times the transition matrix of the logits `U`. -/
def result (A : (⟨2, ![4096, 2048]⟩ : Shape).Idx → EReal) (U : (⟨2, ![2048, 2047]⟩ : Shape).Idx → EReal) :
    (⟨2, ![4096, 2048]⟩ : Shape).Idx → EReal :=
  fun i => ∑ s : Fin 2048, A (ix2 (i 0) s) * transMat U s (i 1)

theorem result_ix2 (A : (⟨2, ![4096, 2048]⟩ : Shape).Idx → EReal) (U : (⟨2, ![2048, 2047]⟩ : Shape).Idx → EReal)
    (b : Fin 4096) (t : Fin 2048) :
    result A U (ix2 b t) = ∑ s : Fin 2048, A (ix2 b s) * transMat U s t := rfl

/-- Below the diagonal the entry is the softmax entry of the same column. -/
theorem withZeroAt_lt (p : Fin 2047 → EReal) (s t : Fin 2048) (h : t.val < s.val) :
    withZeroAt p s t = p ⟨t.val, by omega⟩ := by
  unfold withZeroAt; rw [dif_pos h]

/-- On the diagonal the entry is zero. -/
theorem withZeroAt_eq (p : Fin 2047 → EReal) (s t : Fin 2048) (h : t.val = s.val) :
    withZeroAt p s t = 0 := by
  unfold withZeroAt; rw [dif_neg (by omega), dif_pos h]

/-- Above the diagonal the entry is the softmax entry one column to the left. -/
theorem withZeroAt_gt (p : Fin 2047 → EReal) (s t : Fin 2048) (h : s.val < t.val) :
    withZeroAt p s t = p ⟨t.val - 1, by omega⟩ := by
  unfold withZeroAt; rw [dif_neg (by omega), dif_neg (by omega)]

end Cert.TransMat

end
-- ==== Proof.WordIndex.lean ====
/-
  Row and column numbers as 32-bit words.

  The first launch's body compares a column number `t` with a row number `256 · i + r` (block `i` of eight, row `r` of the
  block), both held as 32-bit words. All these numbers are below 2048, far from the sign bit, so the signed comparison of
  the words is the comparison of the numbers, equality of the words is equality of the numbers, and the word arithmetic
  `i · 256 + r` does not wrap.
-/
import Idealize.ShloMosaic.PureOps
import Idealize.ShloMosaic.Lib.Affine

namespace Cert.TransMat.Words

open Idealize.ShloMosaic

/-- A number below 2048 read back from its word, signed. -/
theorem toInt_ofNat_small {a : Nat} (ha : a < 2048) : (BitVec.ofNat 32 a).toInt = (a : Int) := by
  have h : (BitVec.ofNat 32 a).toNat = a := by rw [BitVec.toNat_ofNat]; omega
  rw [BitVec.toInt_eq_toNat_of_lt (by rw [h]; omega), h]

/-- The signed "less than" of two small numbers' words says the first number is the smaller. -/
theorem slt_iff {a b : Nat} (ha : a < 2048) (hb : b < 2048) :
    IntOp.cmpi .slt (BitVec.ofNat 32 a) (BitVec.ofNat 32 b) = 1#1 ↔ a < b := by
  rw [IntOp.cmpi_slt, toInt_ofNat_small ha, toInt_ofNat_small hb]; omega

/-- Equality of two small numbers' words says the numbers are equal. -/
theorem eq_iff {a b : Nat} (ha : a < 2048) (hb : b < 2048) :
    IntOp.cmpi .eq (BitVec.ofNat 32 a) (BitVec.ofNat 32 b) = 1#1 ↔ a = b := by
  rw [IntOp.cmpi_eq]
  constructor
  · intro h
    have := congrArg BitVec.toNat h
    rw [BitVec.toNat_ofNat, BitVec.toNat_ofNat] at this; omega
  · intro h; rw [h]

/-- The row number of row `r` of block `i`: the word `i · 256 + r` is the word of the number `256 i + r`. -/
theorem row_word {i r : Nat} (hi : i < 8) (hr : r < 256) :
    IntOp.addi (Scalar.muli (BitVec.ofNat 32 i) 256#32) (BitVec.ofNat 32 r) = BitVec.ofNat 32 (256 * i + r) := by
  apply BitVec.eq_of_toNat_eq
  show ((BitVec.ofNat 32 i * 256#32) + BitVec.ofNat 32 r).toNat = _
  rw [BitVec.toNat_add, BitVec.toNat_mul, BitVec.toNat_ofNat, BitVec.toNat_ofNat, BitVec.toNat_ofNat, BitVec.toNat_ofNat]
  omega

end Cert.TransMat.Words
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibLaneReads.lean ====
/-
  General reads at an entry, on the extended reals and at arbitrary sizes:
  * a lane sum and a lane maximum of an [a, n] block at row p, as the sum and the maximum (from −∞) of the row's entries;
  * a product against a TRANSPOSED right operand, into the zero accumulator (the vector spelling) and as the array
    spelling's dot-general, at entry (a, b): Σ_c A(a, c) · B(b, c);
  * the array spelling's sum of a whole array into a scalar: the initial value plus the sum of all entries;
  * a sum over the index type of a vector as the sum over its entries' positions;
  * n copies of a real number add up to n times it, also inside the extended reals (which are not a semiring).
-/
import proofs.«171652_j21680994910755_1_alg».proof.Proof.LibPlainMatmul
import Idealize.ShloMosaic.Lib.ValueIdx
import Idealize.ShloMosaic.Lib.Pipeline.Value
import Idealize.ShloMosaic.Lib.KernelVsHost
import Idealize.ShloMosaic.PureOps.Ideal.Laws

noncomputable section

namespace Cert.Proof.LibLaneReads

open Idealize.ShloMosaic Idealize.ShloMosaic.ValueIdx

/-- A lane sum of an [a, n] block at row p is the sum of that row's entries. -/
theorem laneSum_apply {a n : ℕ} (v : FVec Ideal ⟨2, ![a, n]⟩ .f32) (hr : (⟨2, ![a, n]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 hr hφ hacc (ix1 p) = ∑ k : Fin n, v (ix2 p k) := by
  refine (Ideal.multiReduction_add_single v _ hr hφ hacc (ix1 p)).trans ?_
  show ∑ k : Fin n, v (hr.lift (ix1 p) k) = ∑ k : Fin n, v (ix2 p k)
  refine Finset.sum_congr rfl fun k _ => congrArg v (funext fun ax => Fin.ext ?_)
  match ax with
  | ⟨0, _⟩ => rfl
  | ⟨1, _⟩ => rfl

/-- A lane maximum of an [a, n] block at row p is the maximum, from −∞, of that row's entries. -/
theorem laneMax_apply {a n : ℕ} (v : FVec Ideal ⟨2, ![a, n]⟩ .f32) (hr : (⟨2, ![a, n]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 hr hφ hacc (ix1 p)
      = (Finset.univ : Finset (Fin n)).fold max (Ideal.ofBits .f32 0xFF800000#32) (fun k => v (ix2 p k)) := by
  refine (Ideal.multiReduction_maximumf_single v _ hr hφ hacc (ix1 p)).trans ?_
  show (Finset.univ : Finset (Fin n)).fold max (Ideal.ofBits .f32 0xFF800000#32) (v ∘ hr.lift (ix1 p)) = _
  refine congrArg (fun g => (Finset.univ : Finset (Fin n)).fold max (Ideal.ofBits .f32 0xFF800000#32) g) (funext fun k => ?_)
  refine congrArg v (funext fun ax => Fin.ext ?_)
  match ax with
  | ⟨0, _⟩ => rfl
  | ⟨1, _⟩ => rfl

/-- A product against a transposed right operand, into the zero accumulator, at entry (a, b): Σ_c A(a, c) · B(b, c). -/
theorem matmulT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    matmul (F := Ideal) d none A (transpose ⟨2, ![k, n]⟩ [1, 0] B ht) (constant (F := Ideal) ⟨2, ![m, n]⟩ .f32 0x00000000#32) (ix2 a b)
      = ∑ c : Fin k, A (ix2 a c) * B (ix2 b c) := by
  subst hd
  rw [Cert.Proof.LibPlainMatmul.matmul_plain_zero_apply]
  refine Finset.sum_congr rfl fun c _ => congrArg (A (ix2 a c) * ·) ?_
  exact transpose_apply [1, 0] B ht (ix2 c b) (ix2 b c) (fun ax => match ax with
    | ⟨0, _⟩ => rfl
    | ⟨1, _⟩ => rfl)

/-- The same product in the host's spelling. -/
theorem dotT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    Host.dotGeneral (F := Ideal) d none A (transpose ⟨2, ![k, n]⟩ [1, 0] B ht) (ix2 a b)
      = ∑ c : Fin k, A (ix2 a c) * B (ix2 b c) := by
  rw [← matmul_zero_eq_dotGeneral]
  exact matmulT_apply A B ht d hd a b

/-- The array spelling's sum of a whole array into a scalar: the initial value plus the sum of all entries. -/
theorem hostTotal_apply {s : Shape} {axes : List (Fin s.rank)} (h' : s.ReducesTo axes ⟨0, ![]⟩)
    (hu : 0 < (⟨0, ![]⟩ : Shape).numel) (X : s.Idx → EReal) (z : (⟨0, ![]⟩ : Shape).Idx → EReal) (j : (⟨0, ![]⟩ : Shape).Idx) :
    Host.reduceAdd (F := Ideal) (φ := .f32) X z h' hu j = z (Shape.Idx.first hu) + ∑ i : s.Idx, X i := by
  simp only [Host.reduceAdd, Ideal.hostReduceAdd_def]
  exact Ideal.hostReduceAdd_total h' (fun b => b.elim0) X _ j

/-- A sum over the indices of a vector is the sum over its entries' positions. -/
theorem sum_idx1 {M : Type*} [AddCommMonoid M] {n : ℕ} (f : (⟨1, ![n]⟩ : Shape).Idx → M) :
    ∑ i, f i = ∑ k : Fin n, f (ix1 k) :=
  Fintype.sum_equiv ⟨fun i => (i 0 : Fin n), ix1, fun i => (eq_ix1 i).symm, fun _ => rfl⟩ _ _ (fun i => congrArg f (eq_ix1 i))

/-- n copies of a real add up to n times it, also inside the extended reals. -/
theorem nsmul_coe (n : ℕ) (r : ℝ) : n • (r : EReal) = ((n * r : ℝ) : EReal) := by
  induction n with
  | zero => simp
  | succ k ih =>
    rw [succ_nsmul, ih, ← EReal.coe_add]
    refine congrArg (fun z : ℝ => (z : EReal)) ?_
    push_cast; ring

end Cert.Proof.LibLaneReads

end
-- ==== Proof.LibColumnAndUnitAxis.lean ====
import Idealize.ShloMosaic.Lib.ValueIdx
import Idealize.ShloMosaic.Lib.Pipeline.Value

/-!
Four layout operations read at an index given by coordinates.

A column `[a, 1]` broadcast to `[a, b]` reads, at `(p, c)`, the column's entry `(p, 0)`. A rank-3 array with a
middle axis of extent one, `[a, 1, b]`, seen as the matrix `[a, b]` reads, at `(p, c)`, the entry `(p, 0, c)`; and the
matrix seen as `[a, 1, b]` reads, at `(p, 0, c)`, the entry `(p, c)`: a reshape keeps the row-major position, and the
unit axis contributes nothing to it. A vector `[a]` seen as the column `[a, 1]` reads, at `(p, 0)`, its entry `p`.
-/

noncomputable section

namespace Cert.Proof.LibColumnAndUnitAxis

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array seen as the matrix `[a, b]` reads, at `(p, c)`, the entry `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, b]` matrix seen as `[a, 1, b]` reads, at `(p, 0, c)`, the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) :=
  shapeCast_apply x h _ _ (by
    rw [Shape.rowMajor_val_three, Shape.rowMajor_val_two]
    show p.val * b + c.val = (p.val * 1 + 0) * b + c.val
    rw [Nat.mul_one, Nat.add_zero])

/-- An `[a]` vector seen as the column `[a, 1]` reads, at `(p, u)`, the entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Proof.LibColumnAndUnitAxis

end
-- ==== Proof.MatBody.lean ====
/-
  What the first launch's body stores, read at an entry, at the ideal values.

  The body holds 256 rows of the logits (block `i` of eight). Per row it takes the greatest entry (from −∞), subtracts it,
  exponentiates, sums the exponentials and divides: the row's softmax. It then pads that [256, 2047] block with a zero column
  once on the right and once on the left, and picks per entry (r, t), with `s = 256 i + r` the row's number in the whole
  matrix: the right-padded one where `t < s`, zero where `t = s`, the left-padded one where `t > s`. The narrowing to bf16
  is the identity on the extended reals. So entry (r, t) is the softmax row of row `r` with a zero put in at position `s`.
-/
import proofs.«171652_j21680994910755_1_alg».proof.Proof.Gen.KernelIdeal.Skeleton
import proofs.«171652_j21680994910755_1_alg».proof.Proof.Spec
import proofs.«171652_j21680994910755_1_alg».proof.Proof.WordIndex
import proofs.«171652_j21680994910755_1_alg».proof.Proof.LibLaneReads
import proofs.«171652_j21680994910755_1_alg».proof.Proof.LibColumnAndUnitAxis
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.TransMat

/-- A row's greatest entry, spread back over the row: at (r, k) it is the maximum of row `r`. -/
theorem blockMax_apply (v0 : FVec Ideal S256x2047 .f32) (r : Fin 256) (k : Fin 2047) :
    broadcastTo S256x2047 (shapeCast S256x1 (multiReduction .maximumf [1] S256 v0 0xFF800000#32 reduces_S256x2047_S256 (.inl rfl) rfl)
      shapeCasts_S256_S256x1) broadcasts_S256x1_S256x2047 (ix2 r k) = rowMax (fun k' => v0 (ix2 r k')) := by
  refine (Cert.Proof.LibColumnAndUnitAxis.broadcastTo_a1_ab_apply _ broadcasts_S256x1_S256x2047 r k).trans ?_
  refine (Cert.Proof.LibColumnAndUnitAxis.shapeCast_a_a1_apply _ shapeCasts_S256_S256x1 r 0).trans ?_
  exact Cert.Proof.LibLaneReads.laneMax_apply v0 reduces_S256x2047_S256 (.inl rfl) rfl r

/-- A row's sum, spread back over the row: at (r, k) it is the sum of row `r`. -/
theorem blockSum_apply (v5 : FVec Ideal S256x2047 .f32) (r : Fin 256) (k : Fin 2047) :
    broadcastTo S256x2047 (shapeCast S256x1 (multiReduction .add [1] S256 v5 0x00000000#32 reduces_S256x2047_S256 (.inl rfl) rfl)
      shapeCasts_S256_S256x1) broadcasts_S256x1_S256x2047 (ix2 r k) = ∑ k' : Fin 2047, v5 (ix2 r k') := by
  refine (Cert.Proof.LibColumnAndUnitAxis.broadcastTo_a1_ab_apply _ broadcasts_S256x1_S256x2047 r k).trans ?_
  refine (Cert.Proof.LibColumnAndUnitAxis.shapeCast_a_a1_apply _ shapeCasts_S256_S256x1 r 0).trans ?_
  exact Cert.Proof.LibLaneReads.laneSum_apply v5 reduces_S256x2047_S256 (.inl rfl) rfl r

/-- The exponentials of the block's entries, each taken below its row's greatest entry. -/
def blockExp (v0 : FVec Ideal S256x2047 .f32) : FVec Ideal S256x2047 .f32 :=
  exp (subf v0 (broadcastTo S256x2047 (shapeCast S256x1 (multiReduction .maximumf [1] S256 v0 0xFF800000#32 reduces_S256x2047_S256 (.inl rfl) rfl)
    shapeCasts_S256_S256x1) broadcasts_S256x1_S256x2047))

theorem blockExp_apply (v0 : FVec Ideal S256x2047 .f32) (r : Fin 256) (k : Fin 2047) :
    blockExp v0 (ix2 r k) = rowExp (fun k' => v0 (ix2 r k')) k := by
  show Ideal.exp (v0 (ix2 r k) - _) = Ideal.exp (v0 (ix2 r k) - rowMax _)
  rw [blockMax_apply]

/-- The block's softmax rows, as the body spells them. -/
def blockProbs (v0 : FVec Ideal S256x2047 .f32) : FVec Ideal S256x2047 .f32 :=
  divf (blockExp v0) (broadcastTo S256x2047 (shapeCast S256x1 (multiReduction .add [1] S256 (blockExp v0) 0x00000000#32 reduces_S256x2047_S256 (.inl rfl) rfl)
    shapeCasts_S256_S256x1) broadcasts_S256x1_S256x2047)

/-- Entry (r, k) of the block's softmax is the softmax of row `r` at `k`. -/
theorem blockProbs_apply (v0 : FVec Ideal S256x2047 .f32) (r : Fin 256) (k : Fin 2047) :
    blockProbs v0 (ix2 r k) = rowProb (fun k' => v0 (ix2 r k')) k := by
  show Ideal.div (blockExp v0 (ix2 r k)) _ = Ideal.div (rowExp _ k) (∑ k', rowExp _ k')
  rw [blockSum_apply, blockExp_apply]
  exact congrArg (Ideal.div _) (Finset.sum_congr rfl fun k' _ => blockExp_apply v0 r k')

/-- The body's stored value, with the softmax block named. -/
theorem payload_eq (i : grid0.Coords) (v0 : Vec Ideal S256x2047 .f32) :
    k0_pay1 (F := Ideal) i v0 =
      truncf .bf16 (select
        (cmpi .slt (iota .tc S256x2048 32 [1] iota_S256x2048_d1_w32)
          (addi (broadcast S256x2048 (Scalar.muli (BitVec.ofNat 32 (i 0).val) 256#32)) (iota .tc S256x2048 32 [0] iota_S256x2048_d0_w32)))
        (concatenate S256x2048 1 [⟨S256x2047, blockProbs v0⟩, ⟨S256x1, broadcast S256x1 (Scalar.ofBits (F := Ideal) .f32 0x00000000#32)⟩]
          concatenates_S256x2047_S256x1_S256x2048_d1)
        (select
          (cmpi .eq (iota .tc S256x2048 32 [1] iota_S256x2048_d1_w32)
            (addi (broadcast S256x2048 (Scalar.muli (BitVec.ofNat 32 (i 0).val) 256#32)) (iota .tc S256x2048 32 [0] iota_S256x2048_d0_w32)))
          (broadcast S256x2048 (Scalar.ofBits (F := Ideal) .f32 0x00000000#32))
          (concatenate S256x2048 1 [⟨S256x1, broadcast S256x1 (Scalar.ofBits (F := Ideal) .f32 0x00000000#32)⟩, ⟨S256x2047, blockProbs v0⟩]
            concatenates_S256x1_S256x2047_S256x2048_d1))) bitsLt_bf16_f32 := rfl

/-- Entry (r, t) of the stored block: the softmax of row `r` with a zero put in at the row's own number `s = 256 i + r`. -/
theorem mat_entry (i : grid0.Coords) (hi : (i 0).val < 8) (v0 : Vec Ideal S256x2047 .f32) (r : Fin 256) (t s : Fin 2048)
    (hs : s.val = 256 * (i 0).val + r.val) :
    k0_pay1 (F := Ideal) i v0 (ix2 r t) = withZeroAt (rowProb fun k => v0 (ix2 r k)) s t := by
  rw [payload_eq]
  show Scalar.select
      (IntOp.cmpi .slt (iota .tc S256x2048 32 [1] iota_S256x2048_d1_w32 (ix2 r t))
        (IntOp.addi (Scalar.muli (BitVec.ofNat 32 (i 0).val) 256#32) (iota .tc S256x2048 32 [0] iota_S256x2048_d0_w32 (ix2 r t))))
      (concatenate S256x2048 1 [⟨S256x2047, blockProbs v0⟩, ⟨S256x1, broadcast S256x1 (Scalar.ofBits (F := Ideal) .f32 0x00000000#32)⟩]
          concatenates_S256x2047_S256x1_S256x2048_d1 (ix2 r t))
      (Scalar.select
        (IntOp.cmpi .eq (iota .tc S256x2048 32 [1] iota_S256x2048_d1_w32 (ix2 r t))
          (IntOp.addi (Scalar.muli (BitVec.ofNat 32 (i 0).val) 256#32) (iota .tc S256x2048 32 [0] iota_S256x2048_d0_w32 (ix2 r t))))
        (Scalar.ofBits (F := Ideal) .f32 0x00000000#32)
        (concatenate S256x2048 1 [⟨S256x1, broadcast S256x1 (Scalar.ofBits (F := Ideal) .f32 0x00000000#32)⟩, ⟨S256x2047, blockProbs v0⟩]
            concatenates_S256x1_S256x2047_S256x2048_d1 (ix2 r t))) = _
  rw [iota_single_apply, iota_single_apply]
  show Scalar.select
      (IntOp.cmpi .slt (BitVec.ofNat 32 t.val) (IntOp.addi (Scalar.muli (BitVec.ofNat 32 (i 0).val) 256#32) (BitVec.ofNat 32 r.val))) _
      (Scalar.select
        (IntOp.cmpi .eq (BitVec.ofNat 32 t.val) (IntOp.addi (Scalar.muli (BitVec.ofNat 32 (i 0).val) 256#32) (BitVec.ofNat 32 r.val))) _ _) = _
  rw [Words.row_word hi r.isLt, ← hs]
  by_cases h1 : t.val < s.val
  · rw [(Words.slt_iff t.isLt s.isLt).mpr h1, select_one, withZeroAt_lt _ _ _ h1]
    refine (concatenate_pair_apply_left (t := S256x2048) (s₁ := S256x2047) (s₂ := S256x1) (1 : Fin 2) _ _ _ (ix2 r t) rfl (ix2 r (⟨t.val, by omega⟩ : Fin 2047)) ?_).trans
      (blockProbs_apply v0 r _)
    intro b
    match b with
    | ⟨0, _⟩ => rfl
    | ⟨1, _⟩ => rfl
  · rw [eq_zero_of_ne_one (mt (Words.slt_iff t.isLt s.isLt).mp h1), select_zero]
    by_cases h2 : t.val = s.val
    · rw [(Words.eq_iff t.isLt s.isLt).mpr h2, select_one, withZeroAt_eq _ _ _ h2]
      exact Ideal.ofBits_zero_f32
    · rw [eq_zero_of_ne_one (mt (Words.eq_iff t.isLt s.isLt).mp h2), select_zero, withZeroAt_gt _ _ _ (by omega)]
      refine (concatenate_pair_apply_right (t := S256x2048) (s₁ := S256x1) (s₂ := S256x2047) (1 : Fin 2) _ _ _ (ix2 r t) rfl rfl (ix2 r (⟨t.val - 1, by omega⟩ : Fin 2047)) ?_ ?_).trans
        (blockProbs_apply v0 r _)
      · intro b hb
        match b with
        | ⟨0, _⟩ => rfl
        | ⟨1, _⟩ => exact absurd rfl hb
      · show t.val - 1 + 1 = t.val
        omega

end Cert.KernelIdeal.Body

end
-- ==== Proof.Region0Value.lean ====
/-
  What the first launch leaves in the transition matrix's array, as one function of the logits.

  The grid has eight points. At point `i` the body gets rows 256 i … 256 i + 255 of the logits (all 2047 columns) and writes
  rows 256 i … 256 i + 255 of the [2048, 2048] matrix. Entry (r, t) of what it writes is the softmax of logits row 256 i + r
  with a zero put in at position 256 i + r: entry (256 i + r, t) of the transition matrix of the whole logits array. The
  eight row blocks tile the matrix, so the array ends holding the transition matrix.
-/
import proofs.«171652_j21680994910755_1_alg».proof.Proof.FrameKernelIdealP
import proofs.«171652_j21680994910755_1_alg».proof.Proof.MatBody
import Idealize.ShloMosaic.Lib.Pipeline.Value
import Idealize.ShloMosaic.Lib.ValueIdx

noncomputable section

open scoped BigOperators

namespace Cert.KernelIdeal.Region0

open Cert.KernelIdeal Cert.KernelIdeal.Gen Cert.KernelIdeal.GenP Cert.KernelIdeal.Body Cert.TransMat
open Idealize.ShloMosaic Idealize.ShloMosaic.TcCoe Idealize.SL.Sem Idealize.ShloMosaic.ValueIdx
open Idealize.ShloMosaic.Pipeline (Dat)

/-- The transition matrix of the logits `U` as an array. -/
def matOf (U : S2048x2047.Idx → EReal) : S2048x2048.Idx → EReal := fun j => transMat U (j 0) (j 1)

theorem matOf_ix2 (U : S2048x2047.Idx → EReal) (s t : Fin 2048) : matOf U (ix2 s t) = transMat U s t := rfl

theorem hz : (![0, 0] : Fin 2 → Nat) = fun _ => 0 := funext fun a => by fin_cases a <;> rfl

/-- One entry of one row block: if `x0` holds rows `256 i + ·` of the logits `U`, the body's stored entry `y` at grid position `i`
    is the transition matrix's entry `I = (256 i + y 0, y 1)`. -/
theorem block_entry (i : grid0.Coords) (hi : (i 0).val < 8) (x0 : Vec Ideal S256x2047 .f32) (U : S2048x2047.Idx → EReal)
    (hx0 : ∀ (y0 : S256x2047.Idx) (i0 : S2048x2047.Idx), (i0 0).val = (i 0).val * 256 + (y0 0).val → (i0 1).val = (y0 1).val → x0 y0 = U i0)
    (y : S256x2048.Idx) (I : S2048x2048.Idx) (hI0 : (I 0).val = (i 0).val * 256 + (y 0).val) (hI1 : (I 1).val = (y 1).val) :
    k0_pay1 (F := Ideal) i x0 y = matOf U I := by
  obtain ⟨r, t, rfl⟩ : ∃ (r : Fin 256) (t : Fin 2048), y = ix2 r t := ⟨y 0, y 1, eq_ix2 y⟩
  obtain ⟨s, t', rfl⟩ : ∃ (s t' : Fin 2048), I = ix2 s t' := ⟨I 0, I 1, eq_ix2 I⟩
  have hs : s.val = (i 0).val * 256 + r.val := hI0
  have ht : t' = t := Fin.ext hI1
  subst ht
  rw [mat_entry i hi x0 r t' s (by omega), matOf_ix2]
  unfold transMat
  have hrow : (fun k : Fin 2047 => x0 (ix2 r k)) = fun k : Fin 2047 => U (ix2 s k) :=
    funext fun k => hx0 (ix2 r k) (ix2 s k) hs rfl
  rw [hrow]

/-- The printed index maps, decided over the eight grid points: the grid position the body reads is the output's block row, the
    input moves with it, and both stay in column block 0. -/
theorem idx_facts : ∀ t : Fin cfg0.N, ((grid0.coords t) 0).val = win0_1.index t (0 : Fin 2)
    ∧ win0_0.index t (0 : Fin 2) = win0_1.index t (0 : Fin 2)
    ∧ win0_0.index t (1 : Fin 2) = 0
    ∧ win0_1.index t (1 : Fin 2) = 0
    ∧ win0_1.index t (0 : Fin 2) ≤ 7 :=
  (by decide +kernel : ∀ t : Fin grid0.N, _)

/-- Every row block of the matrix is some point's. -/
theorem idx_onto : ∀ q0 : Fin 8, ∃ t : Fin cfg0.N, win0_1.index t = ![q0.val, 0] :=
  (by decide +kernel : ∀ q0 : Fin 8, ∃ t : Fin grid0.N, win0_1.index t = ![q0.val, 0])

variable (V : (c : Dev nD) → (b : Ref sig .tc) → Buf (Elt Ideal) ((c : Thread nD τ).loc b))

/-- The input's block at point `t` is rows `256 · (block row)` on of the logits as the launch finds them. -/
theorem iblk_rows (c : Dev nD) (t : Fin cfg0.N) (y0 : S256x2047.Idx) (i0 : S2048x2047.Idx)
    (h0 : (i0 0).val = win0_1.index t (0 : Fin 2) * 256 + (y0 0).val) (h1 : (i0 1).val = (y0 1).val) :
    (iblk0 V c 0 t : Vec Ideal S256x2047 .f32) y0 = (V c main_arg3 : S2048x2047.Idx → EReal) i0 := by
  obtain ⟨-, e0, e1, -, -⟩ := idx_facts t
  unfold iblk0
  rw [View.read_apply]
  show V c main_arg3 _ = V c main_arg3 _
  congr 1
  funext ax
  apply Fin.ext
  match ax with
  | ⟨0, _⟩ => show win0_0.index t (0 : Fin 2) * 256 + 1 * (y0 0).val = (i0 0).val; rw [e0, h0]; omega
  | ⟨1, _⟩ => show win0_0.index t (1 : Fin 2) * 2047 + 1 * (y0 1).val = (i0 1).val; rw [e1, h1]; omega

/-- What point `t` writes back is block `t` of the transition matrix of the logits as the launch finds them. -/
theorem flushed_eq (c : Dev nD) (t : Fin cfg0.N) :
    (dat0 V c).flushed 1 t = ((cfg0.win 1).blk t).view.read (Elt Ideal) (matOf (V c main_arg3)) := by
  show (cfg0.win 1).cut (grid0.coords t) ((dat0 V c).after 1 t) = _
  rw [after0_1]
  unfold out0_1
  rw [View.canon_unit_zero hz]
  simp only [View.ld_unit_zero (S := S256x2047) hz]
  funext j
  show k0_pay1 (F := Ideal) (grid0.coords t) (iblk0 V c 0 t) j = matOf (V c main_arg3) (((cfg0.win 1).blk t).view.emb j)
  obtain ⟨g0, -, -, e3, e4⟩ := idx_facts t
  refine block_entry (grid0.coords t) (by omega) _ _
    (fun y0 i0 h0 h1 => iblk_rows V c t y0 i0 (by rw [← g0]; exact h0) h1) j _ ?_ ?_
  · show win0_1.index t (0 : Fin 2) * 256 + 1 * (j 0).val = _; omega
  · show win0_1.index t (1 : Fin 2) * 2048 + 1 * (j 1).val = _; omega

/-- An index of the matrix's array is in point `t`'s block iff each coordinate is in the block's range on its axis. -/
theorem mem_blk (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- The eight row blocks cover the matrix: entry `i` is in block `i 0 / 256`. -/
theorem cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the launch the matrix's array is the transition matrix of the logits the launch found. -/
theorem final (c : Dev nD) : (dat0 V c).arrAt 1 cfg0.N = matOf (V c main_arg3) :=
  (dat0 V c).arrAt_eq_of_cover 1 (matOf (V c main_arg3)) (fun t _ => flushed_eq V c t) cover

end Cert.KernelIdeal.Region0

end
-- ==== Proof.MatmulBody.lean ====
/-
  What the second launch's body stores, read at an entry, at the ideal values.

  The body loads a [512, 2048] block of the first matrix and a [2048, 1024] block of the transition matrix and stores their
  plain product accumulated into zero; the change of float format on the way in is the identity on the extended reals.
  So entry (p, q) of what it stores is ∑ k, x0 (p, k) · x1 (k, q).
-/
import proofs.«171652_j21680994910755_1_alg».proof.Proof.Gen.KernelIdeal.Skeleton
import proofs.«171652_j21680994910755_1_alg».proof.Proof.LibPlainMatmul
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- Entry (p, q) of the stored block is the sum over the 2048 contracted columns. -/
theorem product_entry (x0 : Vec Ideal S512x2048 .f32) (x1 : Vec Ideal S2048x1024 .bf16) (p : Fin 512) (q : Fin 1024) :
    k1_pay1 (F := Ideal) x0 x1 (ix2 p q) = ∑ k : Fin 2048, x0 (ix2 p k) * x1 (ix2 k q) := by
  unfold k1_pay1
  rw [shapeCast_self]
  exact Cert.Proof.LibPlainMatmul.matmul_plain_zero_apply none (truncf .bf16 x0 bitsLt_bf16_f32) x1 p q

end Cert.KernelIdeal.Body

end
-- ==== Proof.Region1Value.lean ====
/-
  What the second launch leaves in its result array, as one function of the two arrays it reads.

  The grid is 8 × 2. At point (a, b) the body gets rows 512 a … 512 a + 511 of the first matrix `A` (all 2048 columns) and
  columns 1024 b … 1024 b + 1023 of the second matrix `M` (all 2048 rows) and writes their product into block (a, b) of the
  result. Entry (512 a + p, 1024 b + q) of the result is therefore ∑ k, A (512 a + p, k) · M (k, 1024 b + q): the same sum
  whichever block it sits in, so the whole result array is the plain product A · M. The sixteen blocks tile the array.
-/
import proofs.«171652_j21680994910755_1_alg».proof.Proof.FrameKernelIdealP
import proofs.«171652_j21680994910755_1_alg».proof.Proof.MatmulBody
import Idealize.ShloMosaic.Lib.Pipeline.Value
import Idealize.ShloMosaic.Lib.ValueIdx

noncomputable section

open scoped BigOperators

namespace Cert.KernelIdeal.Region1

open Cert.KernelIdeal Cert.KernelIdeal.Gen Cert.KernelIdeal.GenP Cert.KernelIdeal.Body
open Idealize.ShloMosaic Idealize.ShloMosaic.TcCoe Idealize.SL.Sem Idealize.ShloMosaic.ValueIdx
open Idealize.ShloMosaic.Pipeline (Dat)

/-- The plain product of a [4096, 2048] matrix with a [2048, 2048] matrix, entry by entry. -/
def product (A : S4096x2048.Idx → EReal) (M : S2048x2048.Idx → EReal) : S4096x2048.Idx → EReal :=
  fun i => ∑ k : Fin 2048, A (ix2 (i 0) k) * M (ix2 k (i 1))

theorem hz : (![0, 0] : Fin 2 → Nat) = fun _ => 0 := funext fun a => by fin_cases a <;> rfl

/-- One entry of one block: if `x0` holds rows `512 a + ·` of `A` and `x1` columns `1024 b + ·` of `M`, the body's stored entry
    `y` is the product's entry `I = (512 a + y 0, 1024 b + y 1)`. -/
theorem block_entry (x0 : Vec Ideal S512x2048 .f32) (x1 : Vec Ideal S2048x1024 .bf16)
    (A : S4096x2048.Idx → EReal) (M : S2048x2048.Idx → EReal) (a b : Nat)
    (hx0 : ∀ (y0 : S512x2048.Idx) (i0 : S4096x2048.Idx), (i0 0).val = a * 512 + (y0 0).val → (i0 1).val = (y0 1).val → x0 y0 = A i0)
    (hx1 : ∀ (y1 : S2048x1024.Idx) (i1 : S2048x2048.Idx), (i1 0).val = (y1 0).val → (i1 1).val = b * 1024 + (y1 1).val → x1 y1 = M i1)
    (y : S512x1024.Idx) (I : S4096x2048.Idx) (hI0 : (I 0).val = a * 512 + (y 0).val) (hI1 : (I 1).val = b * 1024 + (y 1).val) :
    k1_pay1 (F := Ideal) x0 x1 y = product A M I := by
  obtain ⟨p, q, rfl⟩ : ∃ (p : Fin 512) (q : Fin 1024), y = ix2 p q := ⟨y 0, y 1, eq_ix2 y⟩
  rw [product_entry]
  unfold product
  refine Finset.sum_congr rfl fun k _ => ?_
  rw [hx0 (ix2 p k) (ix2 (I 0) k) hI0 rfl, hx1 (ix2 k q) (ix2 k (I 1)) rfl hI1]

/-- The printed index maps, decided over the sixteen grid points: the first input moves with the output's rows, the second with
    its columns, and the output's block indices stay in their ranges. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 1 :=
  (by decide +kernel : ∀ t : Fin grid1.N, _)

/-- Every block of the result is some point's. -/
theorem idx_onto : ∀ (q0 : Fin 8) (q1 : Fin 2), ∃ t : Fin cfg1.N, win1_2.index t = ![q0.val, q1.val] :=
  (by decide +kernel : ∀ (q0 : Fin 8) (q1 : Fin 2), ∃ t : Fin grid1.N, win1_2.index t = ![q0.val, q1.val])

variable (V : (c : Dev nD) → (b : Ref sig .tc) → Buf (Elt Ideal) ((c : Thread nD τ).loc b))

/-- The first input's block at point `t` is rows `512 · (block row)` on of the first matrix as the launch finds it. -/
theorem iblk_rows (c : Dev nD) (t : Fin cfg1.N) (y0 : S512x2048.Idx) (i0 : S4096x2048.Idx)
    (h0 : (i0 0).val = win1_2.index t (0 : Fin 2) * 512 + (y0 0).val) (h1 : (i0 1).val = (y0 1).val) :
    (iblk1 V c 0 t : Vec Ideal S512x2048 .f32) y0 = (V c main_arg1 : S4096x2048.Idx → EReal) i0 := by
  obtain ⟨e0, e1, -, -, -, -⟩ := idx_facts t
  unfold iblk1
  rw [View.read_apply]
  show V c main_arg1 _ = V c main_arg1 _
  congr 1
  funext ax
  apply Fin.ext
  match ax with
  | ⟨0, _⟩ => show win1_0.index t (0 : Fin 2) * 512 + 1 * (y0 0).val = (i0 0).val; rw [e0, h0]; omega
  | ⟨1, _⟩ => show win1_0.index t (1 : Fin 2) * 2048 + 1 * (y0 1).val = (i0 1).val; rw [e1, h1]; omega

/-- The second input's block at point `t` is columns `1024 · (block column)` on of the second matrix as the launch finds it. -/
theorem iblk_cols (c : Dev nD) (t : Fin cfg1.N) (y1 : S2048x1024.Idx) (i1 : S2048x2048.Idx)
    (h0 : (i1 0).val = (y1 0).val) (h1 : (i1 1).val = win1_2.index t (1 : Fin 2) * 1024 + (y1 1).val) :
    (iblk1 V c 1 t : Vec Ideal S2048x1024 .bf16) y1 = (V c main_v0 : S2048x2048.Idx → EReal) i1 := by
  obtain ⟨-, -, e2, e3, -, -⟩ := idx_facts t
  unfold iblk1
  rw [View.read_apply]
  show V c main_v0 _ = V c main_v0 _
  congr 1
  funext ax
  apply Fin.ext
  match ax with
  | ⟨0, _⟩ => show win1_1.index t (0 : Fin 2) * 2048 + 1 * (y1 0).val = (i1 0).val; rw [e2, h0]; omega
  | ⟨1, _⟩ => show win1_1.index t (1 : Fin 2) * 1024 + 1 * (y1 1).val = (i1 1).val; rw [e3, h1]; omega

/-- What point `t` writes back is block `t` of the product of the two arrays as the launch finds them. -/
theorem flushed_eq (c : Dev nD) (t : Fin cfg1.N) :
    (dat1 V c).flushed 2 t
      = ((cfg1.win 2).blk t).view.read (Elt Ideal) (product (V c main_arg1) (V c main_v0)) := by
  show (cfg1.win 2).cut (grid1.coords t) ((dat1 V c).after 2 t) = _
  rw [after1_2]
  unfold out1_2
  rw [View.canon_unit_zero hz]
  simp only [View.ld_unit_zero (S := S512x2048) hz, View.ld_unit_zero (S := S2048x1024) hz]
  funext j
  show k1_pay1 (F := Ideal) (iblk1 V c 0 t) (iblk1 V c 1 t) j = product (V c main_arg1) (V c main_v0) (((cfg1.win 2).blk t).view.emb j)
  refine block_entry _ _ _ _ (win1_2.index t (0 : Fin 2)) (win1_2.index t (1 : Fin 2))
    (fun y0 i0 h0 h1 => iblk_rows V c t y0 i0 h0 h1) (fun y1 i1 h0 h1 => iblk_cols V c t y1 i1 h0 h1) j _ ?_ ?_
  · show win1_2.index t (0 : Fin 2) * 512 + 1 * (j 0).val = _; omega
  · show win1_2.index t (1 : Fin 2) * 1024 + 1 * (j 1).val = _; omega

/-- An index of the result array is in point `t`'s block iff each coordinate is in the block's range on its axis. -/
theorem mem_blk (t : Fin cfg1.N) (i : S4096x2048.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v1).slice (win1_2.rect t)).set ↔ _
  rw [View.set_slice_whole, Rect.mem_set_unit]
  exact Iff.rfl

/-- The sixteen blocks cover the result array: entry `i` is in block (i 0 / 512, i 1 / 1024). -/
theorem cover (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, ht⟩ := idx_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- After the launch the result array is the plain product of the two arrays the launch found. -/
theorem final (c : Dev nD) : (dat1 V c).arrAt 2 cfg1.N = product (V c main_arg1) (V c main_v0) :=
  (dat1 V c).arrAt_eq_of_cover 2 (product (V c main_arg1) (V c main_v0)) (fun t _ => flushed_eq V c t) cover

end Cert.KernelIdeal.Region1

end
-- ==== Proof.KernelValue.lean ====
/-
  The idealized kernel's result as one function of its arguments.

  The first launch leaves the transition matrix of the logits (argument 3) in its output array; the second launch finds the
  matrix `A` (argument 1) as launched and that transition matrix, and leaves their plain product in the result array. So the
  run ends with the result at `A` times the transition matrix of the logits, and the arguments as launched.
-/
import proofs.«171652_j21680994910755_1_alg».proof.Proof.KernelRun
import proofs.«171652_j21680994910755_1_alg».proof.Proof.Region0Value
import proofs.«171652_j21680994910755_1_alg».proof.Proof.Region1Value
import proofs.«171652_j21680994910755_1_alg».proof.Proof.Spec

noncomputable section

open scoped BigOperators

namespace Cert.KernelIdeal.KValue

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg)

/-- The product with the transition matrix's array is the specification's result. -/
theorem product_matOf (A : S4096x2048.Idx → EReal) (U : S2048x2047.Idx → EReal) :
    Region1.product A (Region0.matOf U) = Cert.TransMat.result A U := rfl

/-- The last boundary's contents of the result buffer. -/
theorem result_eq (c : Dev nD) :
    W2 m ρ c (Proc.devRef .tc main_v1)
      = Cert.TransMat.result (m ((c.tc : Thread nD τ).loc main_arg1)) (m ((c.tc : Thread nD τ).loc main_arg3)) := by
  rw [Run.W2_result, Region1.final, Run.V1_arg1, Run.V1_mat, Region0.final, product_matOf]

/-- Every weakly fair execution of the idealized kernel ends with the result at the specification's function of the arguments,
    the arguments unchanged. -/
theorem run : θ_run defs (onTc (τ := τ) (main (F := Ideal))) ⟨m, fun _ => 0, ρ⟩ (fun r => ∀ c : Dev nD,
      r.2.mem ((c.tc : Thread nD τ).loc main_v1)
        = Cert.TransMat.result (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_named (F := Ideal) m ρ)

end Cert.KernelIdeal.KValue

end
-- ==== Proof.RefRun.lean ====
/-
  The reference program's run, read back as a value.

  @main is a straight line of 58 host operations (the two functions it calls stand in their calls' places). Every weakly
  fair execution of it terminates, each buffer then holds the composition of the operations that wrote it applied to the
  launch contents of the arguments, and the arguments are unchanged. The composed term of the result buffer is the tower
  of per-operation values `ReadP.val_main_v29`, a function of the two arguments the result depends on.
-/
import proofs.«171652_j21680994910755_1_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The concatenate of operation 17 as a function of its two operands: a column block [2048, 1] in front of a block
    [2048, 2047], joined along axis 1. -/
def catCols (a : (⟨S2048x1, .f32⟩ : BufTy).Contents (Elt F)) (b : (⟨S2048x2047, .f32⟩ : BufTy).Contents (Elt F)) :
    (⟨S2048x2048, .f32⟩ : BufTy).Contents (Elt F) :=
  concatenate S2048x2048 1 [⟨S2048x1, a⟩, ⟨S2048x2047, b⟩] concatenates_S2048x1_S2048x2047_S2048x2048_d1

/-- @main's 58 operations, in order (a called function's operations stand in its call's place, spelt `TRef.…`); the
    concatenate's function is named (`catCols`), so that it is applied to its two operands like any other. -/
abbrev ops : List (HloOp τ sig (Elt F)) :=
  [ nullary main_cst (constant S_ .f32 0xFF800000#32),
    binary main_arg3 main_cst main_v0 ((fun x v => Host.reduce FloatOps.maximumf x v reducesTo_S2048x2047_S2048_d1 h_S_) : (⟨S2048x2047, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v1 (broadcastInDim S2048 ![] bcast_S_S2048 : (⟨S_, .f32⟩ : BufTy).Contents (Elt F) → (⟨S2048, .f32⟩ : BufTy).Contents (Elt F)),
    binary main_v1 main_v0 main_v2 (maximumf : (⟨S2048, .f32⟩ : BufTy).Contents (Elt F) → (⟨S2048, .f32⟩ : BufTy).Contents (Elt F) → (⟨S2048, .f32⟩ : BufTy).Contents (Elt F)),
    unary main_v2 main_v3 (broadcastInDim S2048x1 ![0] bcast_S2048_S2048x1_0 : (⟨S2048, .f32⟩ : BufTy).Contents (Elt F) → (⟨S2048x1, .f32⟩ : BufTy).Contents (Elt F)),
    unary main_v3 main_v4 (broadcastInDim S2048x2047 ![0, 1] bcast_S2048x1_S2048x2047_0_1 : (⟨S2048x1, .f32⟩ : BufTy).Contents (Elt F) → (⟨S2048x2047, .f32⟩ : BufTy).Contents (Elt F)),
    binary main_arg3 main_v4 main_v5 (subf : (⟨S2048x2047, .f32⟩ : BufTy).Contents (Elt F) → (⟨S2048x2047, .f32⟩ : BufTy).Contents (Elt F) → (⟨S2048x2047, .f32⟩ : BufTy).Contents (Elt F)),
    unary main_v5 main_v6 (Host.exp : (⟨S2048x2047, .f32⟩ : BufTy).Contents (Elt F) → (⟨S2048x2047, .f32⟩ : BufTy).Contents (Elt F)),
    nullary main_cst_1 (constant S_ .f32 0x00000000#32),
    binary main_v6 main_cst_1 main_v7 ((fun x v => Host.reduceAdd x v reducesTo_S2048x2047_S2048_d1 h_S_) : (⟨S2048x2047, .f32⟩ : BufTy).Contents (Elt F) → (⟨S_, .f32⟩ : BufTy).Contents (Elt F) → (⟨S2048, .f32⟩ : BufTy).Contents (Elt F)),
    unary main_v7 main_v8 (broadcastInDim S2048x1 ![0] bcast_S2048_S2048x1_0 : (⟨S2048, .f32⟩ : BufTy).Contents (Elt F) → (⟨S2048x1, .f32⟩ : BufTy).Contents (Elt F)),
    unary main_v8 main_v9 (broadcastInDim S2048x2047 ![0, 1] bcast_S2048x1_S2048x2047_0_1 : (⟨S2048x1, .f32⟩ : BufTy).Contents (Elt F) → (⟨S2048x2047, .f32⟩ : BufTy).Contents (Elt F)),
    binary main_v6 main_v9 main_v10 (Host.divf : (⟨S2048x2047, .f32⟩ : BufTy).Contents (Elt F) → (⟨S2048x2047, .f32⟩ : BufTy).Contents (Elt F) → (⟨S2048x2047, .f32⟩ : BufTy).Contents (Elt F)),
    nullary main_cst_2 (constant S_ .f32 0x00000000#32),
    unary main_cst_2 main_v11 (broadcastInDim S2048x1 ![] bcast_S_S2048x1 : (⟨S_, .f32⟩ : BufTy).Contents (Elt F) → (⟨S2048x1, .f32⟩ : BufTy).Contents (Elt F)),
    binary main_v11 main_v10 main_v12 (catCols (F := F)),
    nullary main_v13 (iotaInDim S2048 32 0),
    unary main_v13 main_v14 (broadcastInDim S2048x1 ![0] bcast_S2048_S2048x1_0 : (⟨S2048, .i32⟩ : BufTy).Contents (Elt F) → (⟨S2048x1, .i32⟩ : BufTy).Contents (Elt F)),
    unary main_v13 main_v15 (broadcastInDim S1x2048 ![1] bcast_S2048_S1x2048_1 : (⟨S2048, .i32⟩ : BufTy).Contents (Elt F) → (⟨S1x2048, .i32⟩ : BufTy).Contents (Elt F)),
    unary main_v13 main_v16 (broadcastInDim S1x2048 ![1] bcast_S2048_S1x2048_1 : (⟨S2048, .i32⟩ : BufTy).Contents (Elt F) → (⟨S1x2048, .i32⟩ : BufTy).Contents (Elt F)),
    unary main_v16 main_v17 (broadcastInDim S2048x2048 ![0, 1] bcast_S1x2048_S2048x2048_0_1 : (⟨S1x2048, .i32⟩ : BufTy).Contents (Elt F) → (⟨S2048x2048, .i32⟩ : BufTy).Contents (Elt F)),
    unary main_v14 main_v18 (broadcastInDim S2048x2048 ![0, 1] bcast_S2048x1_S2048x2048_0_1 : (⟨S2048x1, .i32⟩ : BufTy).Contents (Elt F) → (⟨S2048x2048, .i32⟩ : BufTy).Contents (Elt F)),
    binary main_v17 main_v18 main_v19 (cmpi .slt : (⟨S2048x2048, .i32⟩ : BufTy).Contents (Elt F) → (⟨S2048x2048, .i32⟩ : BufTy).Contents (Elt F) → (⟨S2048x2048, .i1⟩ : BufTy).Contents (Elt F)),
    unary main_v19 main_v20 ((extui 32 · natLt_1_32) : (⟨S2048x2048, .i1⟩ : BufTy).Contents (Elt F) → (⟨S2048x2048, .i32⟩ : BufTy).Contents (Elt F)),
    unary main_v15 main_v21 (broadcastInDim S2048x2048 ![0, 1] bcast_S1x2048_S2048x2048_0_1 : (⟨S1x2048, .i32⟩ : BufTy).Contents (Elt F) → (⟨S2048x2048, .i32⟩ : BufTy).Contents (Elt F)),
    binary main_v21 main_v20 main_v22 (addi : (⟨S2048x2048, .i32⟩ : BufTy).Contents (Elt F) → (⟨S2048x2048, .i32⟩ : BufTy).Contents (Elt F) → (⟨S2048x2048, .i32⟩ : BufTy).Contents (Elt F)),
    unary main_v13 main_v23 (broadcastInDim S1x2048 ![1] bcast_S2048_S1x2048_1 : (⟨S2048, .i32⟩ : BufTy).Contents (Elt F) → (⟨S1x2048, .i32⟩ : BufTy).Contents (Elt F)),
    unary main_v23 main_v24 (broadcastInDim S2048x2048 ![0, 1] bcast_S1x2048_S2048x2048_0_1 : (⟨S1x2048, .i32⟩ : BufTy).Contents (Elt F) → (⟨S2048x2048, .i32⟩ : BufTy).Contents (Elt F)),
    unary main_v14 main_v25 (broadcastInDim S2048x2048 ![0, 1] bcast_S2048x1_S2048x2048_0_1 : (⟨S2048x1, .i32⟩ : BufTy).Contents (Elt F) → (⟨S2048x2048, .i32⟩ : BufTy).Contents (Elt F)),
    binary main_v24 main_v25 main_v26 (cmpi .eq : (⟨S2048x2048, .i32⟩ : BufTy).Contents (Elt F) → (⟨S2048x2048, .i32⟩ : BufTy).Contents (Elt F) → (⟨S2048x2048, .i1⟩ : BufTy).Contents (Elt F)),
    nullary main_c (constantI S_ 32 0#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2048x2048, .i32⟩) main_call0_v1) (broadcastInDim S2048x2048 ![] bcast_S_S2048x2048),
    TRef.ternary (TRef.of (T := ⟨S2048x2048, .i1⟩) main_v26) (TRef.of (T := ⟨S2048x2048, .i32⟩) main_call0_v1) (TRef.of (T := ⟨S2048x2048, .i32⟩) main_v22) (TRef.of (T := ⟨S2048x2048, .i32⟩) main_v27) select,
    TRef.nullary (TRef.of (T := ⟨S_, .i32⟩) main_call1_c) (constantI S_ 32 0#32),
    TRef.unary (TRef.of (T := ⟨S_, .i32⟩) main_call1_c) (TRef.of (T := ⟨S2048x2048, .i32⟩) main_call1_v0) (broadcastInDim S2048x2048 ![] bcast_S_S2048x2048),
    TRef.binary (TRef.of (T := ⟨S2048x2048, .i32⟩) main_v27) (TRef.of (T := ⟨S2048x2048, .i32⟩) main_call1_v0) (TRef.of (T := ⟨S2048x2048, .i1⟩) main_call1_v1) (cmpi .slt),
    TRef.nullary (TRef.of (T := ⟨S_, .i32⟩) main_call1_c_0) (constantI S_ 32 2048#32),
    TRef.unary (TRef.of (T := ⟨S_, .i32⟩) main_call1_c_0) (TRef.of (T := ⟨S2048x2048, .i32⟩) main_call1_v2) (broadcastInDim S2048x2048 ![] bcast_S_S2048x2048),
    TRef.binary (TRef.of (T := ⟨S2048x2048, .i32⟩) main_v27) (TRef.of (T := ⟨S2048x2048, .i32⟩) main_call1_v2) (TRef.of (T := ⟨S2048x2048, .i32⟩) main_call1_v3) addi,
    TRef.ternary (TRef.of (T := ⟨S2048x2048, .i1⟩) main_call1_v1) (TRef.of (T := ⟨S2048x2048, .i32⟩) main_call1_v3) (TRef.of (T := ⟨S2048x2048, .i32⟩) main_v27) (TRef.of (T := ⟨S2048x2048, .i32⟩) main_call1_v4) select,
    TRef.reshape (TRef.of (T := ⟨S2048x2048, .i32⟩) main_call1_v4) (TRef.of (T := ⟨S2048x2048x1, .i32⟩) main_call1_v5) rfl shapeCasts_S2048x2048_S2048x2048x1,
    TRef.nullary (TRef.of (T := ⟨S1, .i32⟩) main_call1_c_1) (constantI S1 32 2047#32),
    TRef.nullary (TRef.of (T := ⟨S_, .i32⟩) main_call1_c_2) (constantI S_ 32 0#32),
    TRef.unary (TRef.of (T := ⟨S_, .i32⟩) main_call1_c_2) (TRef.of (T := ⟨S2048x2048x1, .i32⟩) main_call1_v6) (broadcastInDim S2048x2048x1 ![] bcast_S_S2048x2048x1),
    TRef.binary (TRef.of (T := ⟨S2048x2048x1, .i32⟩) main_call1_v5) (TRef.of (T := ⟨S2048x2048x1, .i32⟩) main_call1_v6) (TRef.of (T := ⟨S2048x2048x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2048x2048x1, .i32⟩) main_call1_v9) (broadcastInDim S2048x2048x1 ![0, 1, 2] bcast_S1x1x1_S2048x2048x1_0_1_2),
    TRef.binary (TRef.of (T := ⟨S2048x2048x1, .i32⟩) main_call1_v5) (TRef.of (T := ⟨S2048x2048x1, .i32⟩) main_call1_v9) (TRef.of (T := ⟨S2048x2048x1, .i1⟩) main_call1_v10) (cmpi .sle),
    TRef.binary (TRef.of (T := ⟨S2048x2048x1, .i1⟩) main_call1_v7) (TRef.of (T := ⟨S2048x2048x1, .i1⟩) main_call1_v10) (TRef.of (T := ⟨S2048x2048x1, .i1⟩) main_call1_v11) andi,
    TRef.nullary (TRef.of (T := ⟨S_, .i1⟩) main_call1_c_3) (constantI S_ 1 1#1),
    TRef.binary (TRef.of (T := ⟨S2048x2048x1, .i1⟩) main_call1_v11) (TRef.of (T := ⟨S_, .i1⟩) main_call1_c_3) (TRef.of (T := ⟨S2048x2048, .i1⟩) main_call1_v12) (fun x v => Host.reduce IntOp.andi x v reducesTo_S2048x2048x1_S2048x2048_d2 h_S_),
    TRef.binary (TRef.of (T := ⟨S2048x2048, .f32⟩) main_v12) (TRef.of (T := ⟨S2048x2048x1, .i32⟩) main_call1_v5) (TRef.of (T := ⟨S2048x2048, .f32⟩) main_call1_v13) (fun x i => Host.gather gather_S2048x2048_S2048x2048x1_S2048x2048_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S2048x2048, .f32⟩) main_call1_v14) (broadcastInDim S2048x2048 ![] bcast_S_S2048x2048),
    TRef.ternary (TRef.of (T := ⟨S2048x2048, .i1⟩) main_call1_v12) (TRef.of (T := ⟨S2048x2048, .f32⟩) main_call1_v13) (TRef.of (T := ⟨S2048x2048, .f32⟩) main_call1_v14) (TRef.of (T := ⟨S2048x2048, .f32⟩) main_v28) select,
    binary main_arg1 main_v28 main_v29 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub ..⟩

/-- On every device, for any float values, from any memory with zero counters: every weakly fair execution of @main
    terminates, and every buffer then holds the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops) main_eq (fun _ => ops_sub) m ρ

end Cert.ReferenceIdeal.RefRun

end
-- ==== Proof.RefAfter.lean ====
/-
  The reference's buffers after its 58 operations, read as values.

  The line of operations is cut in three: the softmax with its zero column in front (17 operations, ending in the
  concatenate), the integer index (18 operations, ending in the outlined `where`), and take_along_axis with the final
  product (23 operations). Each stretch is read on its own from ARBITRARY contents, so that the next stretch sees the
  earlier results as variables; composed, the result buffer holds the tower of per-operation values
  `ReadP.val_main_v29` at the launch contents of the two arguments it depends on, and the four arguments are untouched.
-/
import proofs.«171652_j21680994910755_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Operations 1–17: the softmax of the logits and the zero column joined in front of it. -/
abbrev opsA : List (HloOp τ sig (Elt F)) :=
  [ nullary main_cst (constant S_ .f32 0xFF800000#32),
    binary main_arg3 main_cst main_v0 ((fun x v => Host.reduce FloatOps.maximumf x v reducesTo_S2048x2047_S2048_d1 h_S_) : (⟨S2048x2047, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v1 (broadcastInDim S2048 ![] bcast_S_S2048 : (⟨S_, .f32⟩ : BufTy).Contents (Elt F) → (⟨S2048, .f32⟩ : BufTy).Contents (Elt F)),
    binary main_v1 main_v0 main_v2 (maximumf : (⟨S2048, .f32⟩ : BufTy).Contents (Elt F) → (⟨S2048, .f32⟩ : BufTy).Contents (Elt F) → (⟨S2048, .f32⟩ : BufTy).Contents (Elt F)),
    unary main_v2 main_v3 (broadcastInDim S2048x1 ![0] bcast_S2048_S2048x1_0 : (⟨S2048, .f32⟩ : BufTy).Contents (Elt F) → (⟨S2048x1, .f32⟩ : BufTy).Contents (Elt F)),
    unary main_v3 main_v4 (broadcastInDim S2048x2047 ![0, 1] bcast_S2048x1_S2048x2047_0_1 : (⟨S2048x1, .f32⟩ : BufTy).Contents (Elt F) → (⟨S2048x2047, .f32⟩ : BufTy).Contents (Elt F)),
    binary main_arg3 main_v4 main_v5 (subf : (⟨S2048x2047, .f32⟩ : BufTy).Contents (Elt F) → (⟨S2048x2047, .f32⟩ : BufTy).Contents (Elt F) → (⟨S2048x2047, .f32⟩ : BufTy).Contents (Elt F)),
    unary main_v5 main_v6 (Host.exp : (⟨S2048x2047, .f32⟩ : BufTy).Contents (Elt F) → (⟨S2048x2047, .f32⟩ : BufTy).Contents (Elt F)),
    nullary main_cst_1 (constant S_ .f32 0x00000000#32),
    binary main_v6 main_cst_1 main_v7 ((fun x v => Host.reduceAdd x v reducesTo_S2048x2047_S2048_d1 h_S_) : (⟨S2048x2047, .f32⟩ : BufTy).Contents (Elt F) → (⟨S_, .f32⟩ : BufTy).Contents (Elt F) → (⟨S2048, .f32⟩ : BufTy).Contents (Elt F)),
    unary main_v7 main_v8 (broadcastInDim S2048x1 ![0] bcast_S2048_S2048x1_0 : (⟨S2048, .f32⟩ : BufTy).Contents (Elt F) → (⟨S2048x1, .f32⟩ : BufTy).Contents (Elt F)),
    unary main_v8 main_v9 (broadcastInDim S2048x2047 ![0, 1] bcast_S2048x1_S2048x2047_0_1 : (⟨S2048x1, .f32⟩ : BufTy).Contents (Elt F) → (⟨S2048x2047, .f32⟩ : BufTy).Contents (Elt F)),
    binary main_v6 main_v9 main_v10 (Host.divf : (⟨S2048x2047, .f32⟩ : BufTy).Contents (Elt F) → (⟨S2048x2047, .f32⟩ : BufTy).Contents (Elt F) → (⟨S2048x2047, .f32⟩ : BufTy).Contents (Elt F)),
    nullary main_cst_2 (constant S_ .f32 0x00000000#32),
    unary main_cst_2 main_v11 (broadcastInDim S2048x1 ![] bcast_S_S2048x1 : (⟨S_, .f32⟩ : BufTy).Contents (Elt F) → (⟨S2048x1, .f32⟩ : BufTy).Contents (Elt F)),
    binary main_v11 main_v10 main_v12 (catCols (F := F)) ]

/-- Operations 18–35: the integer index, up to the outlined `where`. -/
abbrev opsB : List (HloOp τ sig (Elt F)) :=
  [ nullary main_v13 (iotaInDim S2048 32 0),
    unary main_v13 main_v14 (broadcastInDim S2048x1 ![0] bcast_S2048_S2048x1_0 : (⟨S2048, .i32⟩ : BufTy).Contents (Elt F) → (⟨S2048x1, .i32⟩ : BufTy).Contents (Elt F)),
    unary main_v13 main_v15 (broadcastInDim S1x2048 ![1] bcast_S2048_S1x2048_1 : (⟨S2048, .i32⟩ : BufTy).Contents (Elt F) → (⟨S1x2048, .i32⟩ : BufTy).Contents (Elt F)),
    unary main_v13 main_v16 (broadcastInDim S1x2048 ![1] bcast_S2048_S1x2048_1 : (⟨S2048, .i32⟩ : BufTy).Contents (Elt F) → (⟨S1x2048, .i32⟩ : BufTy).Contents (Elt F)),
    unary main_v16 main_v17 (broadcastInDim S2048x2048 ![0, 1] bcast_S1x2048_S2048x2048_0_1 : (⟨S1x2048, .i32⟩ : BufTy).Contents (Elt F) → (⟨S2048x2048, .i32⟩ : BufTy).Contents (Elt F)),
    unary main_v14 main_v18 (broadcastInDim S2048x2048 ![0, 1] bcast_S2048x1_S2048x2048_0_1 : (⟨S2048x1, .i32⟩ : BufTy).Contents (Elt F) → (⟨S2048x2048, .i32⟩ : BufTy).Contents (Elt F)),
    binary main_v17 main_v18 main_v19 (cmpi .slt : (⟨S2048x2048, .i32⟩ : BufTy).Contents (Elt F) → (⟨S2048x2048, .i32⟩ : BufTy).Contents (Elt F) → (⟨S2048x2048, .i1⟩ : BufTy).Contents (Elt F)),
    unary main_v19 main_v20 ((extui 32 · natLt_1_32) : (⟨S2048x2048, .i1⟩ : BufTy).Contents (Elt F) → (⟨S2048x2048, .i32⟩ : BufTy).Contents (Elt F)),
    unary main_v15 main_v21 (broadcastInDim S2048x2048 ![0, 1] bcast_S1x2048_S2048x2048_0_1 : (⟨S1x2048, .i32⟩ : BufTy).Contents (Elt F) → (⟨S2048x2048, .i32⟩ : BufTy).Contents (Elt F)),
    binary main_v21 main_v20 main_v22 (addi : (⟨S2048x2048, .i32⟩ : BufTy).Contents (Elt F) → (⟨S2048x2048, .i32⟩ : BufTy).Contents (Elt F) → (⟨S2048x2048, .i32⟩ : BufTy).Contents (Elt F)),
    unary main_v13 main_v23 (broadcastInDim S1x2048 ![1] bcast_S2048_S1x2048_1 : (⟨S2048, .i32⟩ : BufTy).Contents (Elt F) → (⟨S1x2048, .i32⟩ : BufTy).Contents (Elt F)),
    unary main_v23 main_v24 (broadcastInDim S2048x2048 ![0, 1] bcast_S1x2048_S2048x2048_0_1 : (⟨S1x2048, .i32⟩ : BufTy).Contents (Elt F) → (⟨S2048x2048, .i32⟩ : BufTy).Contents (Elt F)),
    unary main_v14 main_v25 (broadcastInDim S2048x2048 ![0, 1] bcast_S2048x1_S2048x2048_0_1 : (⟨S2048x1, .i32⟩ : BufTy).Contents (Elt F) → (⟨S2048x2048, .i32⟩ : BufTy).Contents (Elt F)),
    binary main_v24 main_v25 main_v26 (cmpi .eq : (⟨S2048x2048, .i32⟩ : BufTy).Contents (Elt F) → (⟨S2048x2048, .i32⟩ : BufTy).Contents (Elt F) → (⟨S2048x2048, .i1⟩ : BufTy).Contents (Elt F)),
    nullary main_c (constantI S_ 32 0#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2048x2048, .i32⟩) main_call0_v1) (broadcastInDim S2048x2048 ![] bcast_S_S2048x2048),
    TRef.ternary (TRef.of (T := ⟨S2048x2048, .i1⟩) main_v26) (TRef.of (T := ⟨S2048x2048, .i32⟩) main_call0_v1) (TRef.of (T := ⟨S2048x2048, .i32⟩) main_v22) (TRef.of (T := ⟨S2048x2048, .i32⟩) main_v27) select ]

/-- Operations 36–58: take_along_axis and the final product. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2048x2048, .i32⟩) main_call1_v0) (broadcastInDim S2048x2048 ![] bcast_S_S2048x2048),
    TRef.binary (TRef.of (T := ⟨S2048x2048, .i32⟩) main_v27) (TRef.of (T := ⟨S2048x2048, .i32⟩) main_call1_v0) (TRef.of (T := ⟨S2048x2048, .i1⟩) main_call1_v1) (cmpi .slt),
    TRef.nullary (TRef.of (T := ⟨S_, .i32⟩) main_call1_c_0) (constantI S_ 32 2048#32),
    TRef.unary (TRef.of (T := ⟨S_, .i32⟩) main_call1_c_0) (TRef.of (T := ⟨S2048x2048, .i32⟩) main_call1_v2) (broadcastInDim S2048x2048 ![] bcast_S_S2048x2048),
    TRef.binary (TRef.of (T := ⟨S2048x2048, .i32⟩) main_v27) (TRef.of (T := ⟨S2048x2048, .i32⟩) main_call1_v2) (TRef.of (T := ⟨S2048x2048, .i32⟩) main_call1_v3) addi,
    TRef.ternary (TRef.of (T := ⟨S2048x2048, .i1⟩) main_call1_v1) (TRef.of (T := ⟨S2048x2048, .i32⟩) main_call1_v3) (TRef.of (T := ⟨S2048x2048, .i32⟩) main_v27) (TRef.of (T := ⟨S2048x2048, .i32⟩) main_call1_v4) select,
    TRef.reshape (TRef.of (T := ⟨S2048x2048, .i32⟩) main_call1_v4) (TRef.of (T := ⟨S2048x2048x1, .i32⟩) main_call1_v5) rfl shapeCasts_S2048x2048_S2048x2048x1,
    TRef.nullary (TRef.of (T := ⟨S1, .i32⟩) main_call1_c_1) (constantI S1 32 2047#32),
    TRef.nullary (TRef.of (T := ⟨S_, .i32⟩) main_call1_c_2) (constantI S_ 32 0#32),
    TRef.unary (TRef.of (T := ⟨S_, .i32⟩) main_call1_c_2) (TRef.of (T := ⟨S2048x2048x1, .i32⟩) main_call1_v6) (broadcastInDim S2048x2048x1 ![] bcast_S_S2048x2048x1),
    TRef.binary (TRef.of (T := ⟨S2048x2048x1, .i32⟩) main_call1_v5) (TRef.of (T := ⟨S2048x2048x1, .i32⟩) main_call1_v6) (TRef.of (T := ⟨S2048x2048x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2048x2048x1, .i32⟩) main_call1_v9) (broadcastInDim S2048x2048x1 ![0, 1, 2] bcast_S1x1x1_S2048x2048x1_0_1_2),
    TRef.binary (TRef.of (T := ⟨S2048x2048x1, .i32⟩) main_call1_v5) (TRef.of (T := ⟨S2048x2048x1, .i32⟩) main_call1_v9) (TRef.of (T := ⟨S2048x2048x1, .i1⟩) main_call1_v10) (cmpi .sle),
    TRef.binary (TRef.of (T := ⟨S2048x2048x1, .i1⟩) main_call1_v7) (TRef.of (T := ⟨S2048x2048x1, .i1⟩) main_call1_v10) (TRef.of (T := ⟨S2048x2048x1, .i1⟩) main_call1_v11) andi,
    TRef.nullary (TRef.of (T := ⟨S_, .i1⟩) main_call1_c_3) (constantI S_ 1 1#1),
    TRef.binary (TRef.of (T := ⟨S2048x2048x1, .i1⟩) main_call1_v11) (TRef.of (T := ⟨S_, .i1⟩) main_call1_c_3) (TRef.of (T := ⟨S2048x2048, .i1⟩) main_call1_v12) (fun x v => Host.reduce IntOp.andi x v reducesTo_S2048x2048x1_S2048x2048_d2 h_S_),
    TRef.binary (TRef.of (T := ⟨S2048x2048, .f32⟩) main_v12) (TRef.of (T := ⟨S2048x2048x1, .i32⟩) main_call1_v5) (TRef.of (T := ⟨S2048x2048, .f32⟩) main_call1_v13) (fun x i => Host.gather gather_S2048x2048_S2048x2048x1_S2048x2048_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S2048x2048, .f32⟩) main_call1_v14) (broadcastInDim S2048x2048 ![] bcast_S_S2048x2048),
    TRef.ternary (TRef.of (T := ⟨S2048x2048, .i1⟩) main_call1_v12) (TRef.of (T := ⟨S2048x2048, .f32⟩) main_call1_v13) (TRef.of (T := ⟨S2048x2048, .f32⟩) main_call1_v14) (TRef.of (T := ⟨S2048x2048, .f32⟩) main_v28) select,
    binary main_arg1 main_v28 main_v29 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)) ]

set_option maxRecDepth 8192 in
/-- The line is its three stretches in order. -/
theorem ops_split : (ops : List (HloOp τ sig (Elt F))) = opsA ++ (opsB ++ opsC) := rfl

/-- After the first stretch the joined matrix is its value at the logits. -/
theorem readA_v12 (V : Valuation τ sig (Elt F)) :
    after (opsA (F := F)) V (Proc.devRef .tc main_v12) = ReadP.val_main_v12 (F := F) (V (Proc.devRef .tc main_arg3)) := by
  after_results_simp
  rfl

/-- The first stretch leaves the left factor of the product as it was. -/
theorem readA_arg1 (V : Valuation τ sig (Elt F)) :
    after (opsA (F := F)) V (Proc.devRef .tc main_arg1) = V (Proc.devRef .tc main_arg1) := by
  after_results_simp

/-- After the second stretch the index buffer holds the integer index, whatever was there before. -/
theorem readB_v27 (W : Valuation τ sig (Elt F)) :
    after (opsB (F := F)) W (Proc.devRef .tc main_v27) = ReadP.val_main_v27 (F := F) := by
  after_results_simp
  rfl

/-- The second stretch leaves the joined matrix as it was … -/
theorem readB_v12 (W : Valuation τ sig (Elt F)) :
    after (opsB (F := F)) W (Proc.devRef .tc main_v12) = W (Proc.devRef .tc main_v12) := by
  after_results_simp

/-- … and the left factor of the product. -/
theorem readB_arg1 (W : Valuation τ sig (Elt F)) :
    after (opsB (F := F)) W (Proc.devRef .tc main_arg1) = W (Proc.devRef .tc main_arg1) := by
  after_results_simp

/-! The three stretches write none of @main's four arguments. -/

theorem readA_arg0 (W : Valuation τ sig (Elt F)) :
    after (opsA (F := F)) W (Proc.devRef .tc main_arg0) = W (Proc.devRef .tc main_arg0) := by
  after_results_simp
theorem readA_arg2 (W : Valuation τ sig (Elt F)) :
    after (opsA (F := F)) W (Proc.devRef .tc main_arg2) = W (Proc.devRef .tc main_arg2) := by
  after_results_simp
theorem readA_arg3 (W : Valuation τ sig (Elt F)) :
    after (opsA (F := F)) W (Proc.devRef .tc main_arg3) = W (Proc.devRef .tc main_arg3) := by
  after_results_simp
theorem readB_arg0 (W : Valuation τ sig (Elt F)) :
    after (opsB (F := F)) W (Proc.devRef .tc main_arg0) = W (Proc.devRef .tc main_arg0) := by
  after_results_simp
theorem readB_arg2 (W : Valuation τ sig (Elt F)) :
    after (opsB (F := F)) W (Proc.devRef .tc main_arg2) = W (Proc.devRef .tc main_arg2) := by
  after_results_simp
theorem readB_arg3 (W : Valuation τ sig (Elt F)) :
    after (opsB (F := F)) W (Proc.devRef .tc main_arg3) = W (Proc.devRef .tc main_arg3) := by
  after_results_simp
theorem readC_arg0 (W : Valuation τ sig (Elt F)) :
    after (opsC (F := F)) W (Proc.devRef .tc main_arg0) = W (Proc.devRef .tc main_arg0) := by
  after_results_simp
theorem readC_arg1 (W : Valuation τ sig (Elt F)) :
    after (opsC (F := F)) W (Proc.devRef .tc main_arg1) = W (Proc.devRef .tc main_arg1) := by
  after_results_simp
theorem readC_arg2 (W : Valuation τ sig (Elt F)) :
    after (opsC (F := F)) W (Proc.devRef .tc main_arg2) = W (Proc.devRef .tc main_arg2) := by
  after_results_simp
theorem readC_arg3 (W : Valuation τ sig (Elt F)) :
    after (opsC (F := F)) W (Proc.devRef .tc main_arg3) = W (Proc.devRef .tc main_arg3) := by
  after_results_simp

/-- The whole line leaves each of @main's four arguments as it was. -/
theorem after_arg0 (V : Valuation τ sig (Elt F)) : after (ops (F := F)) V (Proc.devRef .tc main_arg0) = V (Proc.devRef .tc main_arg0) := by
  rw [ops_split, after_append, after_append, readC_arg0, readB_arg0, readA_arg0]
theorem after_arg1 (V : Valuation τ sig (Elt F)) : after (ops (F := F)) V (Proc.devRef .tc main_arg1) = V (Proc.devRef .tc main_arg1) := by
  rw [ops_split, after_append, after_append, readC_arg1, readB_arg1, readA_arg1]
theorem after_arg2 (V : Valuation τ sig (Elt F)) : after (ops (F := F)) V (Proc.devRef .tc main_arg2) = V (Proc.devRef .tc main_arg2) := by
  rw [ops_split, after_append, after_append, readC_arg2, readB_arg2, readA_arg2]
theorem after_arg3 (V : Valuation τ sig (Elt F)) : after (ops (F := F)) V (Proc.devRef .tc main_arg3) = V (Proc.devRef .tc main_arg3) := by
  rw [ops_split, after_append, after_append, readC_arg3, readB_arg3, readA_arg3]

end Cert.ReferenceIdeal.RefRun

end
-- ==== Proof.RefStretchC.lean ====
/-
  The last stretch of the reference's line of operations, read as a value.

  The stretch is take_along_axis followed by the product. It is cut in three at the buffers several later operations read:
  first the column numbers made non-negative and given a trailing unit axis (ending in the reshape), then the mask saying
  each column number is inside the row (ending in the reduction of the mask over the unit axis), then the gather along each
  row, the masked choice and the product. Each part is read from ARBITRARY contents, so the next part sees the earlier
  results as variables; composed, from contents whose joined matrix and index buffers hold their values, the result buffer
  holds the product's value `ReadP.val_main_v29`.
-/
import proofs.«171652_j21680994910755_1_alg».proof.Proof.RefAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 36–43: the column numbers made non-negative and laid out with a trailing unit axis. -/
abbrev opsC1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2048x2048, .i32⟩) main_call1_v0) (broadcastInDim S2048x2048 ![] bcast_S_S2048x2048),
    TRef.binary (TRef.of (T := ⟨S2048x2048, .i32⟩) main_v27) (TRef.of (T := ⟨S2048x2048, .i32⟩) main_call1_v0) (TRef.of (T := ⟨S2048x2048, .i1⟩) main_call1_v1) (cmpi .slt),
    TRef.nullary (TRef.of (T := ⟨S_, .i32⟩) main_call1_c_0) (constantI S_ 32 2048#32),
    TRef.unary (TRef.of (T := ⟨S_, .i32⟩) main_call1_c_0) (TRef.of (T := ⟨S2048x2048, .i32⟩) main_call1_v2) (broadcastInDim S2048x2048 ![] bcast_S_S2048x2048),
    TRef.binary (TRef.of (T := ⟨S2048x2048, .i32⟩) main_v27) (TRef.of (T := ⟨S2048x2048, .i32⟩) main_call1_v2) (TRef.of (T := ⟨S2048x2048, .i32⟩) main_call1_v3) addi,
    TRef.ternary (TRef.of (T := ⟨S2048x2048, .i1⟩) main_call1_v1) (TRef.of (T := ⟨S2048x2048, .i32⟩) main_call1_v3) (TRef.of (T := ⟨S2048x2048, .i32⟩) main_v27) (TRef.of (T := ⟨S2048x2048, .i32⟩) main_call1_v4) select,
    TRef.reshape (TRef.of (T := ⟨S2048x2048, .i32⟩) main_call1_v4) (TRef.of (T := ⟨S2048x2048x1, .i32⟩) main_call1_v5) rfl shapeCasts_S2048x2048_S2048x2048x1 ]

/-- Operations 44–53: the mask saying each column number is inside the row. -/
abbrev opsC2 : List (HloOp τ sig (Elt F)) :=
  [ TRef.nullary (TRef.of (T := ⟨S1, .i32⟩) main_call1_c_1) (constantI S1 32 2047#32),
    TRef.nullary (TRef.of (T := ⟨S_, .i32⟩) main_call1_c_2) (constantI S_ 32 0#32),
    TRef.unary (TRef.of (T := ⟨S_, .i32⟩) main_call1_c_2) (TRef.of (T := ⟨S2048x2048x1, .i32⟩) main_call1_v6) (broadcastInDim S2048x2048x1 ![] bcast_S_S2048x2048x1),
    TRef.binary (TRef.of (T := ⟨S2048x2048x1, .i32⟩) main_call1_v5) (TRef.of (T := ⟨S2048x2048x1, .i32⟩) main_call1_v6) (TRef.of (T := ⟨S2048x2048x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2048x2048x1, .i32⟩) main_call1_v9) (broadcastInDim S2048x2048x1 ![0, 1, 2] bcast_S1x1x1_S2048x2048x1_0_1_2),
    TRef.binary (TRef.of (T := ⟨S2048x2048x1, .i32⟩) main_call1_v5) (TRef.of (T := ⟨S2048x2048x1, .i32⟩) main_call1_v9) (TRef.of (T := ⟨S2048x2048x1, .i1⟩) main_call1_v10) (cmpi .sle),
    TRef.binary (TRef.of (T := ⟨S2048x2048x1, .i1⟩) main_call1_v7) (TRef.of (T := ⟨S2048x2048x1, .i1⟩) main_call1_v10) (TRef.of (T := ⟨S2048x2048x1, .i1⟩) main_call1_v11) andi,
    TRef.nullary (TRef.of (T := ⟨S_, .i1⟩) main_call1_c_3) (constantI S_ 1 1#1),
    TRef.binary (TRef.of (T := ⟨S2048x2048x1, .i1⟩) main_call1_v11) (TRef.of (T := ⟨S_, .i1⟩) main_call1_c_3) (TRef.of (T := ⟨S2048x2048, .i1⟩) main_call1_v12) (fun x v => Host.reduce IntOp.andi x v reducesTo_S2048x2048x1_S2048x2048_d2 h_S_) ]

/-- Operations 54–58: the gather along each row, the masked choice, and the product. -/
abbrev opsC3 : List (HloOp τ sig (Elt F)) :=
  [ TRef.binary (TRef.of (T := ⟨S2048x2048, .f32⟩) main_v12) (TRef.of (T := ⟨S2048x2048x1, .i32⟩) main_call1_v5) (TRef.of (T := ⟨S2048x2048, .f32⟩) main_call1_v13) (fun x i => Host.gather gather_S2048x2048_S2048x2048x1_S2048x2048_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S2048x2048, .f32⟩) main_call1_v14) (broadcastInDim S2048x2048 ![] bcast_S_S2048x2048),
    TRef.ternary (TRef.of (T := ⟨S2048x2048, .i1⟩) main_call1_v12) (TRef.of (T := ⟨S2048x2048, .f32⟩) main_call1_v13) (TRef.of (T := ⟨S2048x2048, .f32⟩) main_call1_v14) (TRef.of (T := ⟨S2048x2048, .f32⟩) main_v28) select,
    binary main_arg1 main_v28 main_v29 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)) ]

set_option maxRecDepth 8192 in
/-- The stretch is its three parts in order. -/
theorem opsC_split : (opsC : List (HloOp τ sig (Elt F))) = opsC1 ++ (opsC2 ++ opsC3) := rfl

/-- After the first part the reshaped column numbers hold their value, from contents whose index buffer holds its. -/
theorem readC1_v5 (W : Valuation τ sig (Elt F)) (h27 : W (Proc.devRef .tc main_v27) = ReadP.val_main_v27 (F := F)) :
    after (opsC1 (F := F)) W (Proc.devRef .tc main_call1_v5) = ReadP.val_main_call1_v5 (F := F) := by
  after_results_simp
  simp only [TRef.toBuf, TRef.ofBuf, cast_eq]
  rw [h27]
  rfl

/-- The first part leaves the joined matrix as it was … -/
theorem passC1_v12 (W : Valuation τ sig (Elt F)) :
    after (opsC1 (F := F)) W (Proc.devRef .tc main_v12) = W (Proc.devRef .tc main_v12) := by
  after_results_simp

/-- … and the left factor of the product. -/
theorem passC1_arg1 (W : Valuation τ sig (Elt F)) :
    after (opsC1 (F := F)) W (Proc.devRef .tc main_arg1) = W (Proc.devRef .tc main_arg1) := by
  after_results_simp

/-- After the second part the mask holds its value, from contents whose reshaped column numbers hold theirs. -/
theorem readC2_v12 (W : Valuation τ sig (Elt F)) (h5 : W (Proc.devRef .tc main_call1_v5) = ReadP.val_main_call1_v5 (F := F)) :
    after (opsC2 (F := F)) W (Proc.devRef .tc main_call1_v12) = ReadP.val_main_call1_v12 (F := F) := by
  after_results_simp
  simp only [TRef.toBuf, TRef.ofBuf, cast_eq]
  rw [h5]
  rfl

/-- The second part leaves the joined matrix as it was … -/
theorem passC2_v12 (W : Valuation τ sig (Elt F)) :
    after (opsC2 (F := F)) W (Proc.devRef .tc main_v12) = W (Proc.devRef .tc main_v12) := by
  after_results_simp

/-- … the reshaped column numbers … -/
theorem passC2_v5 (W : Valuation τ sig (Elt F)) :
    after (opsC2 (F := F)) W (Proc.devRef .tc main_call1_v5) = W (Proc.devRef .tc main_call1_v5) := by
  after_results_simp

/-- … and the left factor of the product. -/
theorem passC2_arg1 (W : Valuation τ sig (Elt F)) :
    after (opsC2 (F := F)) W (Proc.devRef .tc main_arg1) = W (Proc.devRef .tc main_arg1) := by
  after_results_simp

/-- After the third part the result buffer holds the product's value, from contents whose joined matrix, reshaped column
    numbers and mask hold theirs. -/
theorem readC3_v29 (W : Valuation τ sig (Elt F)) (x3 : (⟨S2048x2047, .f32⟩ : BufTy).Contents (Elt F))
    (h12 : W (Proc.devRef .tc main_v12) = ReadP.val_main_v12 (F := F) x3)
    (h5 : W (Proc.devRef .tc main_call1_v5) = ReadP.val_main_call1_v5 (F := F))
    (hm : W (Proc.devRef .tc main_call1_v12) = ReadP.val_main_call1_v12 (F := F)) :
    after (opsC3 (F := F)) W (Proc.devRef .tc main_v29) = ReadP.val_main_v29 (F := F) (W (Proc.devRef .tc main_arg1)) x3 := by
  after_results_simp
  simp only [TRef.toBuf, TRef.ofBuf, cast_eq]
  rw [h12, h5, hm]
  rfl

/-- THE LAST STRETCH from contents whose joined matrix and index are the values of the first two stretches: the result
    buffer holds the product's value. -/
theorem readC_v29 (W : Valuation τ sig (Elt F)) (x3 : (⟨S2048x2047, .f32⟩ : BufTy).Contents (Elt F))
    (h12 : W (Proc.devRef .tc main_v12) = ReadP.val_main_v12 (F := F) x3)
    (h27 : W (Proc.devRef .tc main_v27) = ReadP.val_main_v27 (F := F)) :
    after (opsC (F := F)) W (Proc.devRef .tc main_v29) = ReadP.val_main_v29 (F := F) (W (Proc.devRef .tc main_arg1)) x3 := by
  rw [opsC_split, after_append, after_append]
  have h5 := readC1_v5 W h27
  rw [readC3_v29 (after opsC2 (after opsC1 W)) x3
      ((passC2_v12 _).trans ((passC1_v12 W).trans h12))
      ((passC2_v5 _).trans h5)
      (readC2_v12 _ h5),
    passC2_arg1, passC1_arg1]

end Cert.ReferenceIdeal.RefRun

end
-- ==== Proof.RefIndex.lean ====
/-
  The integer index the reference gathers with, read at a coordinate.

  For row `s` and column `t` (both below 2048) the reference builds, in 32-bit words, the column to read of the
  zero-fronted softmax matrix: `0` on the diagonal, `t + 1` below it and `t` above it. The wrap-around step of
  take_along_axis (add 2048 to a negative index) never fires, since every index is a small non-negative number.
-/
import proofs.«171652_j21680994910755_1_alg».proof.Proof.RefReadP

noncomputable section

namespace Cert.ReferenceIdeal.RefValue

open Cert.ReferenceIdeal Cert.ReferenceIdeal.Gen Cert.ReferenceIdeal.ReadP Idealize.ShloMosaic Idealize.ShloMosaic.ValueIdx

variable {F : FTy → Type} [FloatOps F]

/-- The column the reference reads at row `s`, column `t`, as a natural number. -/
def colOf (s t : Nat) : Nat := if t = s then 0 else if t < s then t + 1 else t

theorem colOf_lt (s t : Nat) (hs : s < 2048) (ht : t < 2048) : colOf s t < 2048 := by
  unfold colOf; split
  · omega
  · split <;> omega

/-- A small natural number read back signed from its 32-bit word is itself. -/
theorem toInt_ofNat_small (x : Nat) (h : x < 2147483648) : (BitVec.ofNat 32 x).toInt = (x : Int) := by
  rw [BitVec.toInt_eq_toNat_of_lt (by rw [BitVec.toNat_ofNat]; omega), BitVec.toNat_ofNat]
  omega

/-- Signed comparison of the words of two small natural numbers is the comparison of the numbers. -/
theorem slt_ofNat_small (x y : Nat) (hx : x < 2147483648) (hy : y < 2147483648) :
    (BitVec.ofNat 32 x).slt (BitVec.ofNat 32 y) = decide (x < y) := by
  unfold BitVec.slt
  rw [toInt_ofNat_small x hx, toInt_ofNat_small y hy]
  simp

theorem sle_ofNat_small (x y : Nat) (hx : x < 2147483648) (hy : y < 2147483648) :
    (BitVec.ofNat 32 x).sle (BitVec.ofNat 32 y) = decide (x ≤ y) := by
  unfold BitVec.sle
  rw [toInt_ofNat_small x hx, toInt_ofNat_small y hy]
  simp

/-- The words of two small natural numbers are equal exactly when the numbers are. -/
theorem beq_ofNat_small (x y : Nat) (hx : x < 4294967296) (hy : y < 4294967296) :
    (BitVec.ofNat 32 x == BitVec.ofNat 32 y) = decide (x = y) := by
  by_cases h : x = y
  · subst h; simp
  · have : BitVec.ofNat 32 x ≠ BitVec.ofNat 32 y := by
      intro e
      have := congrArg BitVec.toNat e
      rw [BitVec.toNat_ofNat, BitVec.toNat_ofNat] at this
      omega
    simp [h, this]

/-- The index before the wrap-around step, on words: `0` on the diagonal, else the column plus the bit "column below row". -/
theorem word_idx (s t : Nat) (hs : s < 2048) (ht : t < 2048) :
    Scalar.select (IntOp.cmpi .eq (BitVec.ofNat 32 t) (BitVec.ofNat 32 s)) (0#32)
      (IntOp.addi (BitVec.ofNat 32 t) ((IntOp.cmpi .slt (BitVec.ofNat 32 t) (BitVec.ofNat 32 s)).setWidth 32))
      = BitVec.ofNat 32 (colOf s t) := by
  unfold IntOp.cmpi IntOp.addi Scalar.select colOf
  simp only []
  rw [beq_ofNat_small t s (by omega) (by omega), slt_ofNat_small t s (by omega) (by omega)]
  by_cases h1 : t = s
  · simp [h1]
  · by_cases h2 : t < s
    · simp [h1, h2, BitVec.ofNat_add]
    · simp [h1, h2]

/-- The wrap-around step leaves a small non-negative index as it is. -/
theorem word_wrap (n : Nat) (hn : n < 2048) :
    Scalar.select (IntOp.cmpi .slt (BitVec.ofNat 32 n) (0#32)) (IntOp.addi (BitVec.ofNat 32 n) (2048#32)) (BitVec.ofNat 32 n)
      = BitVec.ofNat 32 n := by
  unfold IntOp.cmpi Scalar.select
  simp only []
  rw [show (0#32) = BitVec.ofNat 32 0 from rfl, slt_ofNat_small n 0 (by omega) (by omega)]
  simp

/-- The column coordinate as a word, broadcast over the rows (first copy). -/
theorem v17_at (s t : Fin 2048) : val_main_v17 (F := F) (ix2 s t) = BitVec.ofNat 32 t.val := by
  rw [val_main_v17_apply, val_main_v16_apply, val_main_v13_apply]
/-- The row coordinate as a word, broadcast over the columns. -/
theorem v18_at (s t : Fin 2048) : val_main_v18 (F := F) (ix2 s t) = BitVec.ofNat 32 s.val := by
  rw [val_main_v18_apply, val_main_v14_apply, val_main_v13_apply]
theorem v21_at (s t : Fin 2048) : val_main_v21 (F := F) (ix2 s t) = BitVec.ofNat 32 t.val := by
  rw [val_main_v21_apply, val_main_v15_apply, val_main_v13_apply]
theorem v24_at (s t : Fin 2048) : val_main_v24 (F := F) (ix2 s t) = BitVec.ofNat 32 t.val := by
  rw [val_main_v24_apply, val_main_v23_apply, val_main_v13_apply]
theorem v25_at (s t : Fin 2048) : val_main_v25 (F := F) (ix2 s t) = BitVec.ofNat 32 s.val := by
  rw [val_main_v25_apply, val_main_v14_apply, val_main_v13_apply]

/-- The index the outlined `where` returns at row `s`, column `t`. -/
theorem v27_at (s t : Fin 2048) : val_main_v27 (F := F) (ix2 s t) = BitVec.ofNat 32 (colOf s.val t.val) := by
  rw [val_main_v27_apply, val_main_v26_apply, val_main_v22_apply, val_main_v20_apply, val_main_v19_apply,
    v24_at, v25_at, v21_at, v17_at, v18_at, val_main_call0_v1_apply, val_main_call0_v0_apply, val_main_c_apply]
  exact word_idx s.val t.val s.isLt t.isLt

/-- The index after the wrap-around step of take_along_axis at row `s`, column `t`. -/
theorem call1_v4_at (s t : Fin 2048) : val_main_call1_v4 (F := F) (ix2 s t) = BitVec.ofNat 32 (colOf s.val t.val) := by
  rw [val_main_call1_v4_apply, val_main_call1_v1_apply, val_main_call1_v3_apply, v27_at, val_main_call1_v0_apply,
    val_main_call1_c_apply, val_main_call1_v2_apply, val_main_call1_c_0_apply]
  exact word_wrap _ (colOf_lt _ _ s.isLt t.isLt)

/-- The same index after the reshape to [2048, 2048, 1]. -/
theorem call1_v5_at (s t : Fin 2048) (u : Fin 1) :
    val_main_call1_v5 (F := F) (ix3 s t u) = BitVec.ofNat 32 (colOf s.val t.val) := by
  rw [val_main_call1_v5_apply]
  have e : idx_main_call1_v5 (ix3 s t u) = ix2 s t := by
    funext a
    refine Fin.ext ?_
    have hu : u.val = 0 := by omega
    match a with
    | ⟨0, _⟩ => show ((s.val * 2048 + t.val) * 1 + u.val) / 2048 = s.val; omega
    | ⟨1, _⟩ => show ((s.val * 2048 + t.val) * 1 + u.val) % 2048 = t.val; omega
  rw [e, call1_v4_at]

end Cert.ReferenceIdeal.RefValue

end
-- ==== Proof.RefGather.lean ====
/-
  take_along_axis read at a coordinate.

  The gather of the reference has one batching axis (the row) and one collapsed axis (the column, which the start index
  addresses): its element at row `s`, column `t` is the operand at row `s` and at the column the start index
  `idx[s, t, 0]` names, read signed and clamped into `[0, 2047]`. With the integer index of the reference that column
  is `0` on the diagonal, `t + 1` below it and `t` above it; every index is in bounds, so the in-bounds mask is 1
  everywhere and the fill value of the final select is never taken.
-/
import proofs.«171652_j21680994910755_1_alg».proof.Proof.RefIndex
import Idealize.ShloMosaic.Lib.ReduceAll

noncomputable section

namespace Cert.ReferenceIdeal.RefValue

open Cert.ReferenceIdeal Cert.ReferenceIdeal.Gen Cert.ReferenceIdeal.ReadP Idealize.ShloMosaic Idealize.ShloMosaic.ValueIdx

variable {F : FTy → Type} [FloatOps F]

/-! ## The batched gather at an index -/

section Gather
variable {α : Type}

/-- THE GATHER READ AT `(s, t)`: the operand at row `s`, at the column the start index `idx[s, t, 0]` names, read
    signed and clamped into `[0, 2047]`. -/
theorem gather_at (x : S2048x2048.Idx → α) (idx : IVec S2048x2048x1 32) (s t : Fin 2048) :
    Host.gather gather_S2048x2048_S2048x2048x1_S2048x2048_n_1_0_0_1_2_11 x idx (ix2 s t)
      = x (ix2 s ⟨min (idx (ix3 s t (0 : Fin 1))).toInt.toNat 2047, by omega⟩) := by
  unfold Host.gather
  congr 1
  funext a
  refine Fin.ext ?_
  have hb0 : (0 : Fin S2048x2048.rank) ∈ gather_S2048x2048_S2048x2048x1_S2048x2048_n_1_0_0_1_2_11.operandBatchingDims := List.mem_singleton.mpr rfl
  have hb1 : (1 : Fin S2048x2048.rank) ∉ gather_S2048x2048_S2048x2048x1_S2048x2048_n_1_0_0_1_2_11.operandBatchingDims := by
    intro h; exact absurd (List.mem_singleton.mp h) (by decide)
  have hc1 : (1 : Fin S2048x2048.rank) ∈ gather_S2048x2048_S2048x2048x1_S2048x2048_n_1_0_0_1_2_11.collapsedSliceDims := List.mem_singleton.mpr rfl
  have hm1 : (1 : Fin S2048x2048.rank) ∈ gather_S2048x2048_S2048x2048x1_S2048x2048_n_1_0_0_1_2_11.startIndexMap := List.mem_singleton.mpr rfl
  match a with
  | ⟨0, _⟩ =>
    show gather_S2048x2048_S2048x2048x1_S2048x2048_n_1_0_0_1_2_11.start (ix2 s t) idx 0 + gather_S2048x2048_S2048x2048x1_S2048x2048_n_1_0_0_1_2_11.batchCoord (ix2 s t) 0 + gather_S2048x2048_S2048x2048x1_S2048x2048_n_1_0_0_1_2_11.offCoord (ix2 s t) 0 = s.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show gather_S2048x2048_S2048x2048x1_S2048x2048_n_1_0_0_1_2_11.start (ix2 s t) idx 1 + gather_S2048x2048_S2048x2048x1_S2048x2048_n_1_0_0_1_2_11.batchCoord (ix2 s t) 1 + gather_S2048x2048_S2048x2048x1_S2048x2048_n_1_0_0_1_2_11.offCoord (ix2 s t) 1
      = min (idx (ix3 s t (0 : Fin 1))).toInt.toNat 2047
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos hm1]
    have hsi : gather_S2048x2048_S2048x2048x1_S2048x2048_n_1_0_0_1_2_11.siIdx (ix2 s t)
        ⟨List.idxOf (1 : Fin S2048x2048.rank) gather_S2048x2048_S2048x2048x1_S2048x2048_n_1_0_0_1_2_11.startIndexMap, List.idxOf_lt_length_iff.2 hm1⟩ = ix3 s t (0 : Fin 1) := by
      funext b; refine Fin.ext ?_
      match b with
      | ⟨0, _⟩ => rfl
      | ⟨1, _⟩ => rfl
      | ⟨2, _⟩ => rfl
    rw [hsi]
    rfl

end Gather

/-! ## A reduce by `and` over words that are all 1 -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_one f l fun n hn => h n (List.mem_cons_of_mem _ hn)

/-- A reduce by `and` from 1 of an array of 1s is 1 at every index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  rw [hinit]
  exact foldl_andi_one (fun n => x (s.rowMajor.symm n)) _ fun n _ => hx _

/-! ## The in-bounds mask, the gathered element, and the final select -/

/-- Every index is in bounds: the mask before the reduce is 1 at every index. -/
theorem call1_v11_ix (s t : Fin 2048) (u : Fin 1) : val_main_call1_v11 (F := F) (ix3 s t u) = 1#1 := by
  rw [val_main_call1_v11_apply, val_main_call1_v7_apply, val_main_call1_v10_apply, call1_v5_at,
    val_main_call1_v6_apply, val_main_call1_c_2_apply, val_main_call1_v9_apply, val_main_call1_v8_apply,
    val_main_call1_c_1_apply]
  have hc := colOf_lt s.val t.val s.isLt t.isLt
  unfold IntOp.cmpi
  simp only []
  rw [show (0#32) = BitVec.ofNat 32 0 from rfl, show (2047#32) = BitVec.ofNat 32 2047 from rfl,
    sle_ofNat_small _ _ (by omega) (by omega), sle_ofNat_small _ _ (by omega) (by omega),
    decide_eq_true (Nat.zero_le _), decide_eq_true (show colOf s.val t.val ≤ 2047 by omega)]
  rfl

theorem call1_v11_at (i : S2048x2048x1.Idx) : val_main_call1_v11 (F := F) i = 1#1 :=
  (congrArg (val_main_call1_v11 (F := F)) (eq_ix3 i)).trans (call1_v11_ix (i 0) (i 1) (i 2))

/-- The in-bounds mask is 1 at every row and column. -/
theorem call1_v12_at (j : S2048x2048.Idx) : val_main_call1_v12 (F := F) j = 1#1 := by
  unfold val_main_call1_v12
  exact reduce_andi_of_all _ _ _ _ j rfl call1_v11_at

/-- The gathered element at row `s`, column `t`: the joined matrix at row `s`, column `colOf s t`. -/
theorem call1_v13_at (x3 : (⟨S2048x2047, .f32⟩ : BufTy).Contents (Elt F)) (s t : Fin 2048) :
    val_main_call1_v13 (F := F) x3 (ix2 s t)
      = val_main_v12 (F := F) x3 (ix2 s ⟨colOf s.val t.val, colOf_lt _ _ s.isLt t.isLt⟩) := by
  unfold val_main_call1_v13
  rw [gather_at]
  refine congrArg (val_main_v12 (F := F) x3) (congrArg (ix2 s) (Fin.ext ?_))
  show min (val_main_call1_v5 (F := F) (ix3 s t (0 : Fin 1))).toInt.toNat 2047 = colOf s.val t.val
  have hc := colOf_lt s.val t.val s.isLt t.isLt
  rw [call1_v5_at, toInt_ofNat_small _ (by omega), Int.toNat_natCast]
  omega

/-- THE REFERENCE'S MATRIX AT `(s, t)`: the joined matrix at row `s`, column `colOf s t` (the fill value is never taken). -/
theorem v28_at (x3 : (⟨S2048x2047, .f32⟩ : BufTy).Contents (Elt F)) (s t : Fin 2048) :
    val_main_v28 (F := F) x3 (ix2 s t)
      = val_main_v12 (F := F) x3 (ix2 s ⟨colOf s.val t.val, colOf_lt _ _ s.isLt t.isLt⟩) := by
  rw [val_main_v28_apply, call1_v12_at, select_one, call1_v13_at]

end Cert.ReferenceIdeal.RefValue

end
-- ==== Proof.RefSoftmax.lean ====
/-
  The reference's softmax, read at a coordinate.

  Row `s` of the logits is turned into the probability row of the specification: the row's greatest entry is the fold
  of `max` from −∞ (a further maximum with −∞ changes nothing), each entry's exponential is taken of its distance below
  that greatest entry, the exponentials are summed from zero, and each is divided by the sum. The reference then puts a
  zero column in front of the [2048, 2047] block: column 0 of the padded matrix is zero, column j > 0 is the softmax's
  column j − 1.
-/
import proofs.«171652_j21680994910755_1_alg».proof.Proof.RefReadP
import proofs.«171652_j21680994910755_1_alg».proof.Proof.Spec
import Idealize.ShloMosaic.PureOps.Reduce
import Idealize.ShloMosaic.Lib.Pipeline.Value

noncomputable section

open scoped BigOperators

namespace Cert.ReferenceIdeal.RefSoftmax

open Cert.ReferenceIdeal Cert.ReferenceIdeal.Gen Cert.ReferenceIdeal.ReadP Idealize.ShloMosaic Idealize.ShloMosaic.ValueIdx

/-- The logits, as the reference holds them. -/
abbrev Logits : Type := (⟨S2048x2047, .f32⟩ : BufTy).Contents (Elt Ideal)

/-- Row `s` of the logits. -/
abbrev rowOf (x3 : Logits) (s : Fin 2048) : Fin 2047 → EReal := fun k => x3 (ix2 s k)

/-- The host's maximum along the rows of an [a, n] array, read at row `p`: the fold of `max` over the row's entries from the
    initial value (stated at arbitrary sizes, so that no literal extent is ever evaluated). -/
theorem hostRowMax_apply {a n : ℕ} (x : (⟨2, ![a, n]⟩ : Shape).Idx → EReal) (init : S_.Idx → EReal)
    (h' : (⟨2, ![a, n]⟩ : Shape).ReducesTo [1] ⟨1, ![a]⟩) (h : (⟨2, ![a, n]⟩ : Shape).Reduces [1] ⟨1, ![a]⟩)
    (hu : 0 < S_.numel) (p : Fin a) :
    Host.reduce (FloatOps.maximumf (F := Ideal) (φ := .f32)) x init h' hu (ix1 p)
      = (Finset.univ : Finset (Fin n)).fold max (init (Shape.Idx.first hu)) (fun k => x (ix2 p k)) := by
  refine (Host.reduce_eq_fold_single (FloatOps.maximumf (F := Ideal) (φ := .f32)) x init h' h hu (ix1 p)).trans ?_
  show (Finset.univ : Finset (Fin n)).fold max (init (Shape.Idx.first hu)) (x ∘ h.lift (ix1 p)) = _
  refine congrArg (fun g => (Finset.univ : Finset (Fin n)).fold max (init (Shape.Idx.first hu)) g) (funext fun k => ?_)
  refine congrArg x (funext fun ax => Fin.ext ?_)
  match ax with
  | ⟨0, _⟩ => rfl
  | ⟨1, _⟩ => rfl

/-- The row maximum the reference computes is the specification's. -/
theorem v0_at (x3 : Logits) (s : Fin 2048) :
    val_main_v0 (F := Ideal) x3 (ix1 s) = Cert.TransMat.rowMax (rowOf x3 s) := by
  unfold val_main_v0
  exact hostRowMax_apply (a := 2048) (n := 2047) x3 (val_main_cst (F := Ideal)) reducesTo_S2048x2047_S2048_d1 (by decide) h_S_ s

/-- A further maximum with −∞ leaves the row maximum as it is. -/
theorem v2_at (x3 : Logits) (s : Fin 2048) :
    val_main_v2 (F := Ideal) x3 (ix1 s) = Cert.TransMat.rowMax (rowOf x3 s) := by
  rw [val_main_v2_apply, v0_at, val_main_v1_apply, val_main_cst_0_apply, Ideal.maximumf_def, Ideal.ofBits_def]
  refine max_eq_right ?_
  unfold Cert.TransMat.rowMax
  exact (Finset.le_fold_max _).mpr (Or.inl le_rfl)

/-- The row maximum broadcast back over the row. -/
theorem v4_at (x3 : Logits) (s : Fin 2048) (k : Fin 2047) :
    val_main_v4 (F := Ideal) x3 (ix2 s k) = Cert.TransMat.rowMax (rowOf x3 s) := by
  rw [val_main_v4_apply, val_main_v3_apply]
  have e : idx_main_v3 (idx_main_v4 (ix2 s k)) = ix1 s := by
    funext a; match a with | ⟨0, _⟩ => rfl
  rw [e, v2_at]

/-- The exponential of an entry's distance below the row maximum. -/
theorem v6_at (x3 : Logits) (s : Fin 2048) (k : Fin 2047) :
    val_main_v6 (F := Ideal) x3 (ix2 s k) = Cert.TransMat.rowExp (rowOf x3 s) k := by
  rw [val_main_v6_apply, val_main_v5_apply, v4_at, Ideal.hostUnary_exp_def, Ideal.subf_def]
  rfl

/-- The sum of a row's exponentials. -/
theorem v7_at (x3 : Logits) (s : Fin 2048) :
    val_main_v7 (F := Ideal) x3 (ix1 s) = ∑ k : Fin 2047, Cert.TransMat.rowExp (rowOf x3 s) k := by
  rw [val_main_v7_apply, val_main_cst_1_apply, Ideal.ofBits_def, Ideal.ofBits_zero_f32, zero_add]
  refine Finset.sum_congr rfl fun k _ => ?_
  have e : idx_main_v7 (ix1 s) k = ix2 s k := by
    funext a; match a with | ⟨0, _⟩ => rfl | ⟨1, _⟩ => rfl
  rw [e, v6_at]

/-- That sum broadcast back over the row. -/
theorem v9_at (x3 : Logits) (s : Fin 2048) (k : Fin 2047) :
    val_main_v9 (F := Ideal) x3 (ix2 s k) = ∑ k' : Fin 2047, Cert.TransMat.rowExp (rowOf x3 s) k' := by
  rw [val_main_v9_apply, val_main_v8_apply]
  have e : idx_main_v8 (idx_main_v9 (ix2 s k)) = ix1 s := by
    funext a; match a with | ⟨0, _⟩ => rfl
  rw [e, v7_at]

/-- THE SOFTMAX AT `(s, k)`: the specification's probability row of row `s`, at `k`. -/
theorem v10_at (x3 : Logits) (s : Fin 2048) (k : Fin 2047) :
    val_main_v10 (F := Ideal) x3 (ix2 s k) = Cert.TransMat.rowProb (rowOf x3 s) k := by
  rw [val_main_v10_apply, v6_at, v9_at, Ideal.hostDivf_def]
  rfl

/-- THE SOFTMAX AT `(s, k)`, under the name the rest of the reference's reading cites. -/
theorem softmax_entry (x3 : Logits) (s : Fin 2048) (k : Fin 2047) :
    val_main_v10 (F := Ideal) x3 (ix2 s k) = Cert.TransMat.rowProb (fun k' => x3 (ix2 s k')) k := v10_at x3 s k

/-- Column 0 of the padded matrix is the zero column put in front. -/
theorem padded_entry_zero (x3 : Logits) (s : Fin 2048) :
    val_main_v12 (F := Ideal) x3 (ix2 s (0 : Fin 2048)) = 0 := by
  unfold val_main_v12
  refine (concatenate_pair_apply_left (t := S2048x2048) (s₁ := S2048x1) (s₂ := S2048x2047) (1 : Fin 2) _ _ _
    (ix2 s (0 : Fin 2048)) rfl (ix2 s (0 : Fin 1)) ?_).trans ?_
  · intro b
    match b with
    | ⟨0, _⟩ => rfl
    | ⟨1, _⟩ => rfl
  · rw [val_main_v11_apply, val_main_cst_2_apply, Ideal.ofBits_def, Ideal.ofBits_zero_f32]

/-- Column `j > 0` of the padded matrix is the softmax's column `j − 1`. -/
theorem padded_entry_succ (x3 : Logits) (s : Fin 2048) (j : Fin 2048) (hj : 0 < j.val) :
    val_main_v12 (F := Ideal) x3 (ix2 s j) = Cert.TransMat.rowProb (fun k' => x3 (ix2 s k')) ⟨j.val - 1, by omega⟩ := by
  unfold val_main_v12
  refine (concatenate_pair_apply_right (t := S2048x2048) (s₁ := S2048x1) (s₂ := S2048x2047) (1 : Fin 2) _ _ _
    (ix2 s j) rfl rfl (ix2 s (⟨j.val - 1, by omega⟩ : Fin 2047)) ?_ ?_).trans (softmax_entry x3 s _)
  · intro b hb
    match b with
    | ⟨0, _⟩ => rfl
    | ⟨1, _⟩ => exact absurd rfl hb
  · show j.val - 1 + 1 = j.val
    omega

end Cert.ReferenceIdeal.RefSoftmax

end
-- ==== Proof.RefValue.lean ====
/-
  The reference's value: every run of it ends with the result buffer holding the specification's product.

  The matrix the reference multiplies by is, at row `s` and column `t`, the zero-fronted softmax row `s` read at column
  `0` on the diagonal, `t + 1` below it and `t` above it: the softmax row with a zero put in at the diagonal position,
  which is the specification's transition matrix. The product with the left factor, read at an index as a sum over the
  contracted axis, is then the specification's result, and the run of the 58 operations leaves exactly that product in
  the result buffer and the four arguments as they were.
-/
import proofs.«171652_j21680994910755_1_alg».proof.Proof.RefAfter
import proofs.«171652_j21680994910755_1_alg».proof.Proof.RefStretchC
import proofs.«171652_j21680994910755_1_alg».proof.Proof.RefGather
import proofs.«171652_j21680994910755_1_alg».proof.Proof.RefSoftmax
import proofs.«171652_j21680994910755_1_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- THE REFERENCE'S MATRIX IS THE TRANSITION MATRIX: at row `s`, column `t`, the softmax of row `s` with a zero put in
    on the diagonal. -/
theorem v28_transMat (x3 : (⟨S2048x2047, .f32⟩ : BufTy).Contents (Elt Ideal)) (s t : Fin 2048) :
    val_main_v28 (F := Ideal) x3 (ix2 s t) = Cert.TransMat.transMat x3 s t := by
  rw [v28_at]
  unfold Cert.TransMat.transMat
  by_cases h1 : t.val = s.val
  · have hc : colOf s.val t.val = 0 := by unfold colOf; rw [if_pos h1]
    have e : (⟨colOf s.val t.val, colOf_lt _ _ s.isLt t.isLt⟩ : Fin 2048) = (0 : Fin 2048) := Fin.ext hc
    rw [Cert.TransMat.withZeroAt_eq _ _ _ h1, e]
    exact Cert.ReferenceIdeal.RefSoftmax.padded_entry_zero x3 s
  · by_cases h2 : t.val < s.val
    · have hc : colOf s.val t.val = t.val + 1 := by unfold colOf; rw [if_neg h1, if_pos h2]
      rw [Cert.TransMat.withZeroAt_lt _ _ _ h2,
        Cert.ReferenceIdeal.RefSoftmax.padded_entry_succ x3 s ⟨colOf s.val t.val, colOf_lt _ _ s.isLt t.isLt⟩
          (by show 0 < colOf s.val t.val; omega)]
      exact congrArg (Cert.TransMat.rowProb _) (Fin.ext (by show colOf s.val t.val - 1 = t.val; omega))
    · have h3 : s.val < t.val := by omega
      have hc : colOf s.val t.val = t.val := by unfold colOf; rw [if_neg h1, if_neg h2]
      rw [Cert.TransMat.withZeroAt_gt _ _ _ h3,
        Cert.ReferenceIdeal.RefSoftmax.padded_entry_succ x3 s ⟨colOf s.val t.val, colOf_lt _ _ s.isLt t.isLt⟩
          (by show 0 < colOf s.val t.val; omega)]
      exact congrArg (Cert.TransMat.rowProb _) (Fin.ext (by show colOf s.val t.val - 1 = t.val - 1; omega))

/-- THE REFERENCE'S RESULT IS THE SPECIFICATION'S: the left factor times the transition matrix of the logits. -/
theorem val_eq_result (x1 : (⟨S4096x2048, .f32⟩ : BufTy).Contents (Elt Ideal))
    (x3 : (⟨S2048x2047, .f32⟩ : BufTy).Contents (Elt Ideal)) :
    val_main_v29 (F := Ideal) x1 x3 = Cert.TransMat.result x1 x3 := by
  funext i
  rw [val_main_v29_apply]
  show _ = ∑ s : Fin 2048, x1 (ix2 (i 0) s) * Cert.TransMat.transMat x3 s (i 1)
  refine Finset.sum_congr rfl fun k _ => ?_
  have el : lidx_main_v29 i k = ix2 (i 0) k := by
    funext a; match a with | ⟨0, _⟩ => rfl | ⟨1, _⟩ => rfl
  have er : ridx_main_v29 i k = ix2 k (i 1) := by
    funext a; match a with | ⟨0, _⟩ => rfl | ⟨1, _⟩ => rfl
  have hv : val_main_v28 (F := Ideal) x3 (ridx_main_v29 i k) = Cert.TransMat.transMat x3 k (i 1) :=
    (congrArg (val_main_v28 (F := Ideal) x3) er).trans (v28_transMat x3 k (i 1))
  rw [el, hv]
  rfl

/-- The result buffer after the 58 operations: the tower of per-operation values at the contents of the two arguments
    it depends on (the three stretches of the line composed). -/
theorem after_main_v29 {F : FTy → Type} [FloatOps F] (V : Valuation τ sig (Elt F)) :
    after (RefRun.ops (F := F)) V (Proc.devRef .tc main_v29)
      = val_main_v29 (F := F) (V (Proc.devRef .tc main_arg1)) (V (Proc.devRef .tc main_arg3)) := by
  have h12 := (RefRun.readB_v12 (after RefRun.opsA V)).trans (RefRun.readA_v12 V)
  have h27 := RefRun.readB_v27 (after RefRun.opsA V)
  have h1 := (RefRun.readB_arg1 (after RefRun.opsA V)).trans (RefRun.readA_arg1 V)
  rw [RefRun.ops_split, RefRun.after_append, RefRun.after_append, RefRun.readC_v29 _ _ h12 h27, h1]

/-- On every device, from any memory with zero counters: every weakly fair execution of the reference's @main
    terminates with the result buffer at the specification's product of the two arguments it depends on, and the four
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = Cert.TransMat.result (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v29).trans ((after_main_v29 (launchContents m c)).trans (val_eq_result _ _)),
       (h c main_arg0).trans (RefRun.after_arg0 (launchContents m c)),
       (h c main_arg1).trans (RefRun.after_arg1 (launchContents m c)),
       (h c main_arg2).trans (RefRun.after_arg2 (launchContents m c)),
       (h c main_arg3).trans (RefRun.after_arg3 (launchContents m c))⟩)
    (RefRun.run_after m ρ)

end Cert.ReferenceIdeal.RefValue

end
-- ==== Proof.lean ====
/-
  The proof of `Cert.Claim`.

  Both idealized programs compute, from the [4096, 2048] matrix `A` (argument 1) and the [2048, 2047] logits `U` (argument 3),
  the product of `A` with the transition matrix of `U`: each row of `U` turned into a softmax row (taken from the row's greatest
  entry) with a zero put in on the diagonal (`Cert.TransMat.result`, proof/Proof/Spec.lean). The kernel builds the matrix in one
  launch by choosing, entry by entry, between the softmax row padded with a zero on the right, zero, and the row padded on the
  left, and multiplies in a second launch, block by block; the reference pads on the left and gathers along each row through
  computed column numbers, then multiplies. At the ideal values the two are the same sums of the same products: no law beyond
  reading each operation at an entry is used, and the precondition is not opened.
  The frames of the two kernel programs are the frame certificates of their two launches; the reference's frame is its run with
  the result dropped; the idealization rewrote nothing, so `preserves` is `True`.
-/
import proofs.«171652_j21680994910755_1_alg».proof.Defs
import proofs.«171652_j21680994910755_1_alg».proof.Proof.Gen.Kernel
import proofs.«171652_j21680994910755_1_alg».proof.Proof.Gen.KernelIdeal
import proofs.«171652_j21680994910755_1_alg».proof.Proof.Gen.ReferenceIdeal
import proofs.«171652_j21680994910755_1_alg».proof.Proof.Gen.Pre_finite_inputs
import proofs.«171652_j21680994910755_1_alg».proof.Proof.FrameKernelP
import proofs.«171652_j21680994910755_1_alg».proof.Proof.FrameKernelIdealP
import proofs.«171652_j21680994910755_1_alg».proof.Proof.KernelValue
import proofs.«171652_j21680994910755_1_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories that agree on the arguments both idealized programs end with the same result array: `A` times the
    transition matrix of the logits. -/
theorem algebraic : Cert.algebraic_KernelIdeal_ReferenceIdeal := by
  intro m ρ m' ρ' _ hagree
  refine ⟨fun c => Cert.TransMat.result (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
